-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x16 : Shape := ⟨3, ![32, 2048, 16]⟩
abbrev S1x64x32x16 : Shape := ⟨4, ![1, 64, 32, 16]⟩
abbrev S_ : Shape := ⟨0, ![]⟩

class Facts : Prop where
  bcast_S_S32x2048x16 : S_.BroadcastsInDim S32x2048x16 (![] : Fin 0 → Fin S32x2048x16.rank)
  reducesTo_S32x2048x16_S_d0_1_2 : S32x2048x16.ReducesTo [0, 1, 2] S_
  h_S_ : 0 < S_.numel
  bcast_S_S1x64x32x16 : S_.BroadcastsInDim S1x64x32x16 (![] : Fin 0 → Fin S1x64x32x16.rank)
  reducesTo_S1x64x32x16_S_d0_1_2_3 : S1x64x32x16.ReducesTo [0, 1, 2, 3] S_

variable [Facts]

def fn {F : FTy → Type} [FloatOps F] (main_arg0 : FVec F S32x2048x16 .f32) (main_arg1 : FVec F S1x64x32x16 .f32) : IVec S_ 1 :=
  let main_v0 : FVec F S32x2048x16 .f32 := Host.absf main_arg0
  let main_cst : FVec F S_ .f32 := constant S_ .f32 0x7F800000#32
  let main_v1 : FVec F S32x2048x16 .f32 := broadcastInDim S32x2048x16 ![] bcast_S_S32x2048x16 main_cst
  let main_v2 : IVec S32x2048x16 1 := cmpf .olt main_v0 main_v1
  let main_c : IVec S_ 1 := constantI S_ 1 1#1
  let main_v3 : IVec S_ 1 := (fun x v => Host.reduce IntOp.andi x v reducesTo_S32x2048x16_S_d0_1_2 h_S_) main_v2 main_c
  let main_v4 : FVec F S1x64x32x16 .f32 := Host.absf main_arg1
  let main_cst_0 : FVec F S_ .f32 := constant S_ .f32 0x7F800000#32
  let main_v5 : FVec F S1x64x32x16 .f32 := broadcastInDim S1x64x32x16 ![] bcast_S_S1x64x32x16 main_cst_0
  let main_v6 : IVec S1x64x32x16 1 := cmpf .olt main_v4 main_v5
  let main_c_1 : IVec S_ 1 := constantI S_ 1 1#1
  let main_v7 : IVec S_ 1 := (fun x v => Host.reduce IntOp.andi x v reducesTo_S1x64x32x16_S_d0_1_2_3 h_S_) main_v6 main_c_1
  let main_v8 : IVec S_ 1 := andi main_v3 main_v7
  main_v8
-- ==== Kernel.lean ====
abbrev S32x2048x16 : Shape := ⟨3, ![32, 2048, 16]⟩
abbrev S1x64x32x16 : Shape := ⟨4, ![1, 64, 32, 16]⟩
abbrev S32x16x2048 : Shape := ⟨3, ![32, 16, 2048]⟩
abbrev S64x32x16 : Shape := ⟨3, ![64, 32, 16]⟩
abbrev S64x16x32 : Shape := ⟨3, ![64, 16, 32]⟩
abbrev S32x64x32 : Shape := ⟨3, ![32, 64, 32]⟩
abbrev S8x16x2048 : Shape := ⟨3, ![8, 16, 2048]⟩
abbrev S8x64x32 : Shape := ⟨3, ![8, 64, 32]⟩
abbrev S8x2048 : Shape := ⟨2, ![8, 2048]⟩
abbrev S8x1x2048 : Shape := ⟨3, ![8, 1, 2048]⟩
abbrev S8x16 : Shape := ⟨2, ![8, 16]⟩
abbrev S8x1x16 : Shape := ⟨3, ![8, 1, 16]⟩
abbrev S8x64x16 : Shape := ⟨3, ![8, 64, 16]⟩
abbrev S8x64x16x1 : Shape := ⟨4, ![8, 64, 16, 1]⟩
abbrev S1x64x16x32 : Shape := ⟨4, ![1, 64, 16, 32]⟩
abbrev S8x64x16x32 : Shape := ⟨4, ![8, 64, 16, 32]⟩
abbrev S8x64 : Shape := ⟨2, ![8, 64]⟩
abbrev S8x64x1 : Shape := ⟨3, ![8, 64, 1]⟩
abbrev S8x64x1x32 : Shape := ⟨4, ![8, 64, 1, 32]⟩
abbrev S8x64x2048 : Shape := ⟨3, ![8, 64, 2048]⟩

abbrev nBuf : Space → Nat
  | .hbm => 6
  | .vmem => 5
  | .smem => 0
  | _ => 0

abbrev bufTy : (tb : Table) → Fin (tcTables nBuf tb) → BufTy
  | .hbm, ⟨0, _⟩ => ⟨S32x2048x16, .f32⟩
  | .hbm, ⟨1, _⟩ => ⟨S1x64x32x16, .f32⟩
  | .hbm, ⟨2, _⟩ => ⟨S32x16x2048, .f32⟩
  | .hbm, ⟨3, _⟩ => ⟨S64x32x16, .f32⟩
  | .hbm, ⟨4, _⟩ => ⟨S64x16x32, .f32⟩
  | .hbm, ⟨5, _⟩ => ⟨S32x64x32, .f32⟩
  | .local _ .vmem, ⟨0, _⟩ => ⟨S8x16x2048, .f32⟩
  | .local _ .vmem, ⟨1, _⟩ => ⟨S8x16x2048, .f32⟩
  | .local _ .vmem, ⟨2, _⟩ => ⟨S64x16x32, .f32⟩
  | .local _ .vmem, ⟨3, _⟩ => ⟨S8x64x32, .f32⟩
  | .local _ .vmem, ⟨4, _⟩ => ⟨S8x64x32, .f32⟩
  | _, _ => ⟨S32x2048x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x16x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x16x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x64x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S32x2048x16_S32x16x2048_0_2_1 : S32x2048x16.Transposes [0, 2, 1] S32x16x2048
  shapeCasts_S1x64x32x16_S64x32x16 : S1x64x32x16.ShapeCasts S64x32x16
  transposes_S64x32x16_S64x16x32_0_2_1 : S64x32x16.Transposes [0, 2, 1] S64x16x32
  inb_S8x16x2048_S8x16x2048_0_0_0 : ∀ a, (![0, 0, 0] : Fin 3 → Nat) a + S8x16x2048.size a ≤ S8x16x2048.size a
  h_S8x16x2048 : 0 < S8x16x2048.numel
  shapeCasts_S8x16x2048_S8x16x2048 : S8x16x2048.ShapeCasts S8x16x2048
  reduces_S8x16x2048_S8x2048 : S8x16x2048.Reduces [1] S8x2048
  shapeCasts_S8x2048_S8x1x2048 : S8x2048.ShapeCasts S8x1x2048
  broadcasts_S8x1x2048_S8x16x2048 : S8x1x2048.Broadcasts S8x16x2048
  bitsLt_bf16_f32 : FTy.bits .bf16 < FTy.bits .f32
  inb_S64x16x32_S64x16x32_0_0_0 : ∀ a, (![0, 0, 0] : Fin 3 → Nat) a + S64x16x32.size a ≤ S64x16x32.size a
  h_S64x16x32 : 0 < S64x16x32.numel
  shapeCasts_S64x16x32_S64x16x32 : S64x16x32.ShapeCasts S64x16x32
  reduces_S8x16x2048_S8x16 : S8x16x2048.Reduces [2] S8x16
  shapeCasts_S8x16_S8x1x16 : S8x16.ShapeCasts S8x1x16
  shapeCasts_S8x1x16_S8x1x16 : S8x1x16.ShapeCasts S8x1x16
  broadcasts_S8x1x16_S8x64x16 : S8x1x16.Broadcasts S8x64x16
  shapeCasts_S8x64x16_S8x64x16x1 : S8x64x16.ShapeCasts S8x64x16x1
  shapeCasts_S64x16x32_S1x64x16x32 : S64x16x32.ShapeCasts S1x64x16x32
  broadcasts_S8x64x16x1_S8x64x16x32 : S8x64x16x1.Broadcasts S8x64x16x32
  broadcasts_S1x64x16x32_S8x64x16x32 : S1x64x16x32.Broadcasts S8x64x16x32
  reduces_S8x64x16x32_S8x64x32 : S8x64x16x32.Reduces [2] S8x64x32
  reduces_S8x64x32_S8x64 : S8x64x32.Reduces [2] S8x64
  shapeCasts_S8x64_S8x64x1 : S8x64.ShapeCasts S8x64x1
  broadcasts_S8x64x1_S8x64x32 : S8x64x1.Broadcasts S8x64x32
  shapeCasts_S8x64x32_S8x64x1x32 : S8x64x32.ShapeCasts S8x64x1x32
  broadcasts_S8x64x1x32_S8x64x16x32 : S8x64x1x32.Broadcasts S8x64x16x32
  reduces_S8x64x16x32_S8x64x16 : S8x64x16x32.Reduces [3] S8x64x16
  reduces_S8x64x2048_S8x2048 : S8x64x2048.Reduces [1] S8x2048
  broadcasts_S8x1x2048_S8x64x2048 : S8x1x2048.Broadcasts S8x64x2048
  inb_S8x64x32_S8x64x32_0_0_0 : ∀ a, (![0, 0, 0] : Fin 3 → Nat) a + S8x64x32.size a ≤ S8x64x32.size a
  h_S8x64x32 : 0 < S8x64x32.numel
  dot_S8x64x16_S8x16x2048_S8x64x2048_2_1_1_2_0_0_wf : DotDims.WF S8x64x16 S8x16x2048 S8x64x2048 [2] [1] [1] [2] [0] [0]
  dot_S8x64x2048_S8x16x2048_S8x64x16_2_2_1_1_0_0_wf : DotDims.WF S8x64x2048 S8x16x2048 S8x64x16 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x16x2048.size a ≤ S32x16x2048.size a
  hwx0_0 : ∀ i : grid0.Coords, EltTy.bits .f32 = 32 ∨ (Rect.block (s := S32x16x2048) S8x16x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x16x32.size a ≤ S64x16x32.size a
  hwx0_1 : ∀ i : grid0.Coords, EltTy.bits .f32 = 32 ∨ (Rect.block (s := S64x16x32) S64x16x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x64x32.size a ≤ S32x64x32.size a
  hwx0_2 : ∀ i : grid0.Coords, EltTy.bits .f32 = 32 ∨ (Rect.block (s := S32x64x32) S8x64x32.size (cc0_transform_2 i) (hinb0_2 i)).WholeWords (EltTy.packing .f32)

variable [Facts₀]

def dot_S8x64x16_S8x16x2048_S8x64x2048_2_1_1_2_0_0 : DotDims S8x64x16 S8x16x2048 S8x64x2048 where
  lhsContracting := [2]
  rhsContracting := [1]
  lhsNonContracting := [1]
  rhsNonContracting := [2]
  lhsBatch := [0]
  rhsBatch := [0]
  wf := dot_S8x64x16_S8x16x2048_S8x64x2048_2_1_1_2_0_0_wf
def dot_S8x64x2048_S8x16x2048_S8x64x16_2_2_1_1_0_0 : DotDims S8x64x2048 S8x16x2048 S8x64x16 where
  lhsContracting := [2]
  rhsContracting := [2]
  lhsNonContracting := [1]
  rhsNonContracting := [1]
  lhsBatch := [0]
  rhsBatch := [0]
  wf := dot_S8x64x2048_S8x16x2048_S8x64x16_2_2_1_1_0_0_wf

abbrev win0_0 : Pipeline.Window sig grid0 :=
  Pipeline.Window.ofSpec (Memref.whole main_v0) S8x16x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S64x16x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S8x64x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x2048x16 : Shape := ⟨3, ![32, 2048, 16]⟩
abbrev S1x64x32x16 : Shape := ⟨4, ![1, 64, 32, 16]⟩
abbrev S_ : Shape := ⟨0, ![]⟩
abbrev S32x2048 : Shape := ⟨2, ![32, 2048]⟩
abbrev S32x2048x1 : Shape := ⟨3, ![32, 2048, 1]⟩
abbrev S64x32x16 : Shape := ⟨3, ![64, 32, 16]⟩
abbrev S32x2048x64x32 : Shape := ⟨4, ![32, 2048, 64, 32]⟩
abbrev S32x2048x64 : Shape := ⟨3, ![32, 2048, 64]⟩
abbrev S32x2048x64x1 : Shape := ⟨4, ![32, 2048, 64, 1]⟩
abbrev S32x64x32 : Shape := ⟨3, ![32, 64, 32]⟩
abbrev S32x1x64x32 : Shape := ⟨4, ![32, 1, 64, 32]⟩
abbrev S32x1x64 : Shape := ⟨3, ![32, 1, 64]⟩
abbrev S32x1x64x1 : Shape := ⟨4, ![32, 1, 64, 1]⟩

abbrev nBuf : Space → Nat
  | .hbm => 145
  | .vmem => 0
  | .smem => 0
  | _ => 0

abbrev hbmTy0_0 (i : Nat) : BufTy := match i % 128 with
  | 0 => ⟨S32x2048x16, .f32⟩
  | 1 => ⟨S1x64x32x16, .f32⟩
  | 2 => ⟨S32x2048x16, .f32⟩
  | 3 => ⟨S_, .f32⟩
  | 4 => ⟨S32x2048, .f32⟩
  | 5 => ⟨S32x2048x1, .f32⟩
  | 6 => ⟨S32x2048x1, .f32⟩
  | 7 => ⟨S32x2048x1, .f32⟩
  | 8 => ⟨S32x2048x16, .f32⟩
  | 9 => ⟨S32x2048x16, .f32⟩
  | 10 => ⟨S_, .f32⟩
  | 11 => ⟨S32x2048x1, .f32⟩
  | 12 => ⟨S32x2048x1, .f32⟩
  | 13 => ⟨S_, .f32⟩
  | 14 => ⟨S32x2048x1, .f32⟩
  | 15 => ⟨S32x2048x1, .f32⟩
  | 16 => ⟨S32x2048x1, .f32⟩
  | 17 => ⟨S32x2048x16, .f32⟩
  | 18 => ⟨S32x2048x16, .f32⟩
  | 19 => ⟨S64x32x16, .f32⟩
  | 20 => ⟨S32x2048x64x32, .f32⟩
  | 21 => ⟨S_, .f32⟩
  | 22 => ⟨S32x2048x64, .f32⟩
  | 23 => ⟨S_, .f32⟩
  | 24 => ⟨S32x2048, .f32⟩
  | 25 => ⟨S_, .f32⟩
  | 26 => ⟨S32x2048, .f32⟩
  | 27 => ⟨S32x2048, .f32⟩
  | 28 => ⟨S32x2048x1, .f32⟩
  | 29 => ⟨S32x2048x64, .f32⟩
  | 30 => ⟨S32x2048x64, .f32⟩
  | 31 => ⟨S32x2048x64, .f32⟩
  | 32 => ⟨S_, .f32⟩
  | 33 => ⟨S32x2048, .f32⟩
  | 34 => ⟨S32x2048x1, .f32⟩
  | 35 => ⟨S32x2048x64, .f32⟩
  | 36 => ⟨S32x2048x64, .f32⟩
  | 37 => ⟨S32x2048x64x1, .f32⟩
  | 38 => ⟨S32x2048x64x32, .f32⟩
  | 39 => ⟨S32x2048x64x32, .f32⟩
  | 40 => ⟨S_, .f32⟩
  | 41 => ⟨S32x64x32, .f32⟩
  | 42 => ⟨S32x1x64x32, .f32⟩
  | 43 => ⟨S32x1x64x32, .f32⟩
  | 44 => ⟨S_, .f32⟩
  | 45 => ⟨S32x1x64, .f32⟩
  | 46 => ⟨S32x1x64x1, .f32⟩
  | 47 => ⟨S32x1x64x1, .f32⟩
  | 48 => ⟨S32x1x64x1, .f32⟩
  | 49 => ⟨S32x1x64x32, .f32⟩
  | 50 => ⟨S32x1x64x32, .f32⟩
  | 51 => ⟨S_, .f32⟩
  | 52 => ⟨S32x1x64x1, .f32⟩
  | 53 => ⟨S32x1x64x1, .f32⟩
  | 54 => ⟨S_, .f32⟩
  | 55 => ⟨S32x1x64x1, .f32⟩
  | 56 => ⟨S32x1x64x1, .f32⟩
  | 57 => ⟨S32x1x64x1, .f32⟩
  | 58 => ⟨S32x1x64x32, .f32⟩
  | 59 => ⟨S32x1x64x32, .f32⟩
  | 60 => ⟨S32x2048x64x32, .f32⟩
  | 61 => ⟨S32x2048x64x32, .f32⟩
  | 62 => ⟨S_, .f32⟩
  | 63 => ⟨S32x2048x64, .f32⟩
  | 64 => ⟨S32x2048x64, .f32⟩
  | 65 => ⟨S_, .f32⟩
  | 66 => ⟨S32x2048, .f32⟩
  | 67 => ⟨S_, .f32⟩
  | 68 => ⟨S32x2048, .f32⟩
  | 69 => ⟨S32x2048, .f32⟩
  | 70 => ⟨S32x2048x1, .f32⟩
  | 71 => ⟨S32x2048x64, .f32⟩
  | 72 => ⟨S32x2048x64, .f32⟩
  | 73 => ⟨S32x2048x64, .f32⟩
  | 74 => ⟨S_, .f32⟩
  | 75 => ⟨S32x2048, .f32⟩
  | 76 => ⟨S32x2048x1, .f32⟩
  | 77 => ⟨S32x2048x64, .f32⟩
  | 78 => ⟨S32x2048x64, .f32⟩
  | 79 => ⟨S32x2048x64x1, .f32⟩
  | 80 => ⟨S32x2048x64x32, .f32⟩
  | 81 => ⟨S32x2048x64x32, .f32⟩
  | 82 => ⟨S_, .f32⟩
  | 83 => ⟨S32x64x32, .f32⟩
  | 84 => ⟨S32x1x64x32, .f32⟩
  | 85 => ⟨S32x1x64x32, .f32⟩
  | 86 => ⟨S_, .f32⟩
  | 87 => ⟨S32x1x64, .f32⟩
  | 88 => ⟨S32x1x64x1, .f32⟩
  | 89 => ⟨S32x1x64x1, .f32⟩
  | 90 => ⟨S32x1x64x1, .f32⟩
  | 91 => ⟨S32x1x64x32, .f32⟩
  | 92 => ⟨S32x1x64x32, .f32⟩
  | 93 => ⟨S_, .f32⟩
  | 94 => ⟨S32x1x64x1, .f32⟩
  | 95 => ⟨S32x1x64x1, .f32⟩
  | 96 => ⟨S_, .f32⟩
  | 97 => ⟨S32x1x64x1, .f32⟩
  | 98 => ⟨S32x1x64x1, .f32⟩
  | 99 => ⟨S32x1x64x1, .f32⟩
  | 100 => ⟨S32x1x64x32, .f32⟩
  | 101 => ⟨S32x1x64x32, .f32⟩
  | 102 => ⟨S32x2048x64x32, .f32⟩
  | 103 => ⟨S32x2048x64x32, .f32⟩
  | 104 => ⟨S_, .f32⟩
  | 105 => ⟨S32x2048x64, .f32⟩
  | 106 => ⟨S32x2048x64, .f32⟩
  | 107 => ⟨S_, .f32⟩
  | 108 => ⟨S32x2048, .f32⟩
  | 109 => ⟨S_, .f32⟩
  | 110 => ⟨S32x2048, .f32⟩
  | 111 => ⟨S32x2048, .f32⟩
  | 112 => ⟨S32x2048x1, .f32⟩
  | 113 => ⟨S32x2048x64, .f32⟩
  | 114 => ⟨S32x2048x64, .f32⟩
  | 115 => ⟨S32x2048x64, .f32⟩
  | 116 => ⟨S_, .f32⟩
  | 117 => ⟨S32x2048, .f32⟩
  | 118 => ⟨S32x2048x1, .f32⟩
  | 119 => ⟨S32x2048x64, .f32⟩
  | 120 => ⟨S32x2048x64, .f32⟩
  | 121 => ⟨S32x2048x64x1, .f32⟩
  | 122 => ⟨S32x2048x64x32, .f32⟩
  | 123 => ⟨S32x2048x64x32, .f32⟩
  | 124 => ⟨S_, .f32⟩
  | 125 => ⟨S32x64x32, .f32⟩
  | 126 => ⟨S32x1x64x32, .f32⟩
  | 127 => ⟨S32x1x64x32, .f32⟩
  | _ => ⟨S32x2048x16, .f32⟩

abbrev hbmTy0_1 (i : Nat) : BufTy := match i % 128 with
  | 0 => ⟨S_, .f32⟩
  | 1 => ⟨S32x1x64, .f32⟩
  | 2 => ⟨S32x1x64x1, .f32⟩
  | 3 => ⟨S32x1x64x1, .f32⟩
  | 4 => ⟨S32x1x64x1, .f32⟩
  | 5 => ⟨S32x1x64x32, .f32⟩
  | 6 => ⟨S32x1x64x32, .f32⟩
  | 7 => ⟨S_, .f32⟩
  | 8 => ⟨S32x1x64x1, .f32⟩
  | 9 => ⟨S32x1x64x1, .f32⟩
  | 10 => ⟨S_, .f32⟩
  | 11 => ⟨S32x1x64x1, .f32⟩
  | 12 => ⟨S32x1x64x1, .f32⟩
  | 13 => ⟨S32x1x64x1, .f32⟩
  | 14 => ⟨S32x1x64x32, .f32⟩
  | 15 => ⟨S32x1x64x32, .f32⟩
  | 16 => ⟨S32x64x32, .f32⟩
  | _ => ⟨S32x2048x16, .f32⟩

abbrev hbmTy (i : Nat) : BufTy := match i / 128 with
  | 0 => hbmTy0_0 i
  | 1 => hbmTy0_1 i
  | _ => ⟨S32x2048x16, .f32⟩

abbrev bufTy : (tb : Table) → Fin (tcTables nBuf tb) → BufTy
  | .hbm, ⟨i, _⟩ => hbmTy i
  | _, _ => ⟨S32x2048x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_call1_v0 : Ref sig .tc := ⟨.hbm, 43, rfl⟩
abbrev main_call1_cst : Ref sig .tc := ⟨.hbm, 44, rfl⟩
abbrev main_call1_v1 : Ref sig .tc := ⟨.hbm, 45, rfl⟩
abbrev main_call1_v2 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_11 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_12 : Ref sig .tc := ⟨.hbm, 82, rfl⟩
abbrev main_v59 : Ref sig .tc := ⟨.hbm, 83, rfl⟩
abbrev main_v60 : Ref sig .tc := ⟨.hbm, 84, rfl⟩
abbrev main_call2_v0 : Ref sig .tc := ⟨.hbm, 85, rfl⟩
abbrev main_call2_cst : Ref sig .tc := ⟨.hbm, 86, rfl⟩
abbrev main_call2_v1 : Ref sig .tc := ⟨.hbm, 87, rfl⟩
abbrev main_call2_v2 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_13 : Ref sig .tc := ⟨.hbm, 93, rfl⟩
abbrev main_v65 : Ref sig .tc := ⟨.hbm, 94, rfl⟩
abbrev main_v66 : Ref sig .tc := ⟨.hbm, 95, rfl⟩
abbrev main_cst_14 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_15 : Ref sig .tc := ⟨.hbm, 104, rfl⟩
abbrev main_v74 : Ref sig .tc := ⟨.hbm, 105, rfl⟩
abbrev main_v75 : Ref sig .tc := ⟨.hbm, 106, rfl⟩
abbrev main_cst_16 : Ref sig .tc := ⟨.hbm, 107, rfl⟩
abbrev main_v76 : Ref sig .tc := ⟨.hbm, 108, rfl⟩
abbrev main_cst_17 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_18 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_19 : Ref sig .tc := ⟨.hbm, 124, rfl⟩
abbrev main_v90 : Ref sig .tc := ⟨.hbm, 125, rfl⟩
abbrev main_v91 : Ref sig .tc := ⟨.hbm, 126, rfl⟩
abbrev main_call3_v0 : Ref sig .tc := ⟨.hbm, 127, rfl⟩
abbrev main_call3_cst : Ref sig .tc := ⟨.hbm, 128, rfl⟩
abbrev main_call3_v1 : Ref sig .tc := ⟨.hbm, 129, rfl⟩
abbrev main_call3_v2 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_cst_20 : Ref sig .tc := ⟨.hbm, 135, rfl⟩
abbrev main_v96 : Ref sig .tc := ⟨.hbm, 136, rfl⟩
abbrev main_v97 : Ref sig .tc := ⟨.hbm, 137, rfl⟩
abbrev main_cst_21 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩

abbrev nD : Nat := 1
abbrev τ : Topo := Topo.v7x

variable {F : FTy → Type} [FloatOps F]

class Facts₀ : Prop where
  reducesTo_S32x2048x16_S32x2048_d2 : S32x2048x16.ReducesTo [2] S32x2048
  h_S_ : 0 < S_.numel
  bcast_S32x2048_S32x2048x1_0_1 : S32x2048.BroadcastsInDim S32x2048x1 (![0, 1] : Fin 2 → Fin S32x2048x1.rank)
  bcast_S32x2048x1_S32x2048x16_0_1_2 : S32x2048x1.BroadcastsInDim S32x2048x16 (![0, 1, 2] : Fin 3 → Fin S32x2048x16.rank)
  bcast_S_S32x2048x1 : S_.BroadcastsInDim S32x2048x1 (![] : Fin 0 → Fin S32x2048x1.rank)
  shapeCasts_S1x64x32x16_S64x32x16 : S1x64x32x16.ShapeCasts S64x32x16
  bcast_S_S32x2048x64 : S_.BroadcastsInDim S32x2048x64 (![] : Fin 0 → Fin S32x2048x64.rank)
  reducesTo_S32x2048x64_S32x2048_d2 : S32x2048x64.ReducesTo [2] S32x2048
  bcast_S_S32x2048 : S_.BroadcastsInDim S32x2048 (![] : Fin 0 → Fin S32x2048.rank)
  bcast_S32x2048x1_S32x2048x64_0_1_2 : S32x2048x1.BroadcastsInDim S32x2048x64 (![0, 1, 2] : Fin 3 → Fin S32x2048x64.rank)
  bcast_S32x2048x64_S32x2048x64x1_0_1_2 : S32x2048x64.BroadcastsInDim S32x2048x64x1 (![0, 1, 2] : Fin 3 → Fin S32x2048x64x1.rank)
  bcast_S32x2048x64x1_S32x2048x64x32_0_1_2_3 : S32x2048x64x1.BroadcastsInDim S32x2048x64x32 (![0, 1, 2, 3] : Fin 4 → Fin S32x2048x64x32.rank)
  reducesTo_S32x2048x64x32_S32x64x32_d1 : S32x2048x64x32.ReducesTo [1] S32x64x32
  bcast_S32x64x32_S32x1x64x32_0_2_3 : S32x64x32.BroadcastsInDim S32x1x64x32 (![0, 2, 3] : Fin 3 → Fin S32x1x64x32.rank)
  reducesTo_S32x1x64x32_S32x1x64_d3 : S32x1x64x32.ReducesTo [3] S32x1x64
  bcast_S32x1x64_S32x1x64x1_0_1_2 : S32x1x64.BroadcastsInDim S32x1x64x1 (![0, 1, 2] : Fin 3 → Fin S32x1x64x1.rank)
  bcast_S32x1x64x1_S32x1x64x32_0_1_2_3 : S32x1x64x1.BroadcastsInDim S32x1x64x32 (![0, 1, 2, 3] : Fin 4 → Fin S32x1x64x32.rank)
  bcast_S_S32x1x64x1 : S_.BroadcastsInDim S32x1x64x1 (![] : Fin 0 → Fin S32x1x64x1.rank)
  bcast_S32x1x64x32_S32x2048x64x32_0_1_2_3 : S32x1x64x32.BroadcastsInDim S32x2048x64x32 (![0, 1, 2, 3] : Fin 4 → Fin S32x2048x64x32.rank)
  reducesTo_S32x2048x64x32_S32x2048x64_d3 : S32x2048x64x32.ReducesTo [3] S32x2048x64
  shapeCasts_S32x1x64x32_S32x64x32 : S32x1x64x32.ShapeCasts S32x64x32
  dot_S32x2048x16_S64x32x16_S32x2048x64x32_2_2_01_01_n_n_wf : DotDims.WF S32x2048x16 S64x32x16 S32x2048x64x32 [2] [2] [0, 1] [0, 1] [] []

variable [Facts₀]

def dot_S32x2048x16_S64x32x16_S32x2048x64x32_2_2_01_01_n_n : DotDims S32x2048x16 S64x32x16 S32x2048x64x32 where
  lhsContracting := [2]
  rhsContracting := [2]
  lhsNonContracting := [0, 1]
  rhsNonContracting := [0, 1]
  lhsBatch := []
  rhsBatch := []
  wf := dot_S32x2048x16_S64x32x16_S32x2048x64x32_2_2_01_01_n_n_wf

class Facts : Prop extends Facts₀ where

variable [Facts]
-- ==== Proof.Routing.lean ====
/-
  Dynamic routing between capsules, three rounds, for ONE batch element, over the extended reals.

  Inputs: `x n i` (2048 input capsules of 16 coordinates) and the shared weight `w o d i` (64 output capsules,
  32 output coordinates, 16 input coordinates). With `squash f = (|f|² · f) / ((1/2 + |f|²) · (ε + |f|))`, the squashed
  inputs `xs n`, the predictions `u n o d = Σ_i xs n i · w o d i`, and routing logits `l n o` that start at zero,
  each round takes `c n · = softmax (l n ·)`, `s o d = Σ_n c n o · u n o d`, `v o = squash (s o)`, and adds the
  agreement `Σ_d u n o d · v o d` to `l n o`; the result is the last round's `v`.

  Two arrangements of this one function are written out below, term by term as the two programs compute them.
  * The FACTORED arrangement never forms `u`: it contracts the inputs first, `t o i = Σ_n c n o · xs n i`, then
    `s o d = Σ_i t o i · w o d i`; for the agreement it contracts the weight first, `q o i = Σ_d v o d · w o d i`,
    then `Σ_i q o i · xs n i`. In the first round the logits are zero, the coupling is the constant 1/64, and it uses
    `t i = (Σ_n xs n i) · (1/64)`. It takes `|f|²` as the sum of squares and `|f|` as its root.
  * The DIRECT arrangement forms `u`, takes the first round's coupling as the softmax of the zero logits, and takes
    `|f|` as the root of the sum of squares and `|f|²` as `|f| · |f|`.
  Both softmaxes subtract `max (-∞) (fold of max from -∞)` before the exponential. The constants stay as the
  binary32 words the programs carry: 1/2, ε (the word nearest 1e-8), 1/64 and -∞.
-/
import Idealize.ShloMosaic.PureOps.Ideal

noncomputable section

namespace Cert.Routing

open Idealize.ShloMosaic

/-- The constant 1/2 of the squashing denominator. -/
def half : EReal := Ideal.ofBits .f32 0x3F000000#32
/-- The small constant ε of the squashing denominator (the binary32 value nearest 1e-8). -/
def eps : EReal := Ideal.ofBits .f32 0x322BCC77#32
/-- The uniform coupling 1/64 of the first round. -/
def inv64 : EReal := Ideal.ofBits .f32 0x3C800000#32
/-- The starting value -∞ of a maximum. -/
def negInf : EReal := Ideal.ofBits .f32 0xFF800000#32

section Pieces
variable {k : Nat}

/-- The sum of squares of a vector. -/
def ssq (f : Fin k → EReal) : EReal := ∑ j, f j * f j

/-- One coordinate of a squashed vector from its squared length `ss`, its length `nr` and the coordinate `v`. -/
def sq (ss nr v : EReal) : EReal := Ideal.div (ss * v) ((half + ss) * (eps + nr))

/-- Squashing, the squared length taken as the sum of squares. -/
def squash (f : Fin k → EReal) (j : Fin k) : EReal := sq (ssq f) (Ideal.sqrt (ssq f)) (f j)

/-- Squashing, the squared length taken as the length times itself. -/
def squash' (f : Fin k → EReal) (j : Fin k) : EReal :=
  sq (Ideal.sqrt (ssq f) * Ideal.sqrt (ssq f)) (Ideal.sqrt (ssq f)) (f j)

/-- The maximum a softmax subtracts. -/
def mx (l : Fin k → EReal) : EReal := max negInf (Finset.univ.fold max negInf l)

/-- Softmax. -/
def sm (l : Fin k → EReal) (o : Fin k) : EReal :=
  Ideal.div (Ideal.exp (l o - mx l)) (∑ o', Ideal.exp (l o' - mx l))

end Pieces

variable (x : Fin 2048 → Fin 16 → EReal) (w : Fin 64 → Fin 32 → Fin 16 → EReal)

/-! ## The factored arrangement -/

/-- The squashed inputs. -/
def xs (n : Fin 2048) (i : Fin 16) : EReal := squash (x n) i

/-- First round: the inputs summed over the capsules, times the uniform coupling. -/
def t0 (i : Fin 16) : EReal := (∑ n, xs x n i) * inv64

/-- First round: the weighted predictions. -/
def s0K (o : Fin 64) (d : Fin 32) : EReal := ∑ i, t0 x i * w o d i

/-- The weight contracted with an output pose. -/
def qK (v : Fin 64 → Fin 32 → EReal) (o : Fin 64) (i : Fin 16) : EReal := ∑ d, v o d * w o d i

/-- The agreement of every input capsule with an output pose. -/
def aK (v : Fin 64 → Fin 32 → EReal) (o : Fin 64) (n : Fin 2048) : EReal := ∑ i, qK w v o i * xs x n i

/-- The inputs contracted with a coupling. -/
def tK (c : Fin 2048 → Fin 64 → EReal) (o : Fin 64) (i : Fin 16) : EReal := ∑ n, c n o * xs x n i

/-- The weighted predictions of a coupling. -/
def sK (c : Fin 2048 → Fin 64 → EReal) (o : Fin 64) (d : Fin 32) : EReal := ∑ i, tK x c o i * w o d i

def v0K (o : Fin 64) (d : Fin 32) : EReal := squash (s0K x w o) d
def l1K (o : Fin 64) (n : Fin 2048) : EReal := aK x w (v0K x w) o n
def c1K (n : Fin 2048) (o : Fin 64) : EReal := sm (fun o' => l1K x w o' n) o
def v1K (o : Fin 64) (d : Fin 32) : EReal := squash (sK x w (c1K x w) o) d
def l2K (o : Fin 64) (n : Fin 2048) : EReal := l1K x w o n + aK x w (v1K x w) o n
def c2K (n : Fin 2048) (o : Fin 64) : EReal := sm (fun o' => l2K x w o' n) o
/-- The result, factored arrangement. -/
def outK (o : Fin 64) (d : Fin 32) : EReal := squash (sK x w (c2K x w) o) d

/-! ## The direct arrangement -/

def xs' (n : Fin 2048) (i : Fin 16) : EReal := squash' (x n) i

/-- The predictions. -/
def u (n : Fin 2048) (o : Fin 64) (d : Fin 32) : EReal := ∑ i, xs' x n i * w o d i

/-- The coupling of zero logits. -/
def c0 (o : Fin 64) : EReal := sm (fun _ : Fin 64 => (0 : EReal)) o

def sR (c : Fin 2048 → Fin 64 → EReal) (o : Fin 64) (d : Fin 32) : EReal := ∑ n, c n o * u x w n o d
def aR (v : Fin 64 → Fin 32 → EReal) (n : Fin 2048) (o : Fin 64) : EReal := ∑ d, u x w n o d * v o d

def v0R (o : Fin 64) (d : Fin 32) : EReal := squash' (sR x w (fun _ => c0) o) d
def l1R (n : Fin 2048) (o : Fin 64) : EReal := aR x w (v0R x w) n o
def c1R (n : Fin 2048) (o : Fin 64) : EReal := sm (l1R x w n) o
def v1R (o : Fin 64) (d : Fin 32) : EReal := squash' (sR x w (c1R x w) o) d
def l2R (n : Fin 2048) (o : Fin 64) : EReal := l1R x w n o + aR x w (v1R x w) n o
def c2R (n : Fin 2048) (o : Fin 64) : EReal := sm (l2R x w n) o
/-- The result, direct arrangement. -/
def outR (o : Fin 64) (d : Fin 32) : EReal := squash' (sR x w (c2R x w) o) d

end Cert.Routing

end
-- ==== Proof.LibFinite.lean ====
/- A general lemma file: which operations of the ideal instance keep an extended real FINITE (a real number).

   The extended reals' sum and product are total, but the laws that move a factor across a sum hold only at
   finite entries, so a proof that uses such a law carries "every entry is a real" from the inputs through each
   stage. Here: sums, differences, products, maxima and minima of reals are real; so is a quotient by a nonzero
   real, a finite sum of reals, and the reciprocal square root of a positive real. -/
import Idealize.ShloMosaic.PureOps.Ideal

namespace Cert.Lib.Finite

open Idealize.ShloMosaic

/-- An extended real that is a real number. -/
def IsReal (x : EReal) : Prop := ∃ r : ℝ, x = (r : EReal)

theorem coe (r : ℝ) : IsReal (r : EReal) := ⟨r, rfl⟩

theorem zero : IsReal 0 := ⟨0, rfl⟩

theorem add {x y : EReal} (hx : IsReal x) (hy : IsReal y) : IsReal (x + y) := by
  obtain ⟨a, rfl⟩ := hx; obtain ⟨b, rfl⟩ := hy; exact ⟨a + b, (EReal.coe_add a b).symm⟩

theorem sub {x y : EReal} (hx : IsReal x) (hy : IsReal y) : IsReal (x - y) := by
  obtain ⟨a, rfl⟩ := hx; obtain ⟨b, rfl⟩ := hy; exact ⟨a - b, (EReal.coe_sub a b).symm⟩

theorem mul {x y : EReal} (hx : IsReal x) (hy : IsReal y) : IsReal (x * y) := by
  obtain ⟨a, rfl⟩ := hx; obtain ⟨b, rfl⟩ := hy; exact ⟨a * b, (EReal.coe_mul a b).symm⟩

theorem neg {x : EReal} (hx : IsReal x) : IsReal (-x) := by
  obtain ⟨a, rfl⟩ := hx; exact ⟨-a, (EReal.coe_neg a).symm⟩

theorem max {x y : EReal} (hx : IsReal x) (hy : IsReal y) : IsReal (Max.max x y) := by
  rcases max_choice x y with h | h <;> rw [h] <;> assumption

theorem min {x y : EReal} (hx : IsReal x) (hy : IsReal y) : IsReal (Min.min x y) := by
  rcases min_choice x y with h | h <;> rw [h] <;> assumption

/-- A quotient of a real by a nonzero real. -/
theorem div_real {x : EReal} (hx : IsReal x) {c : ℝ} (hc : c ≠ 0) : IsReal (Ideal.div x (c : EReal)) := by
  rw [Ideal.div_coe hc]; exact mul hx (coe _)

/-- A finite sum of reals. -/
theorem sum {κ : Type} (s : Finset κ) (f : κ → EReal) (h : ∀ i ∈ s, IsReal (f i)) : IsReal (∑ i ∈ s, f i) := by
  classical
  induction s using Finset.induction_on with
  | empty => simpa using zero
  | insert a s ha ih =>
    rw [Finset.sum_insert ha]
    exact add (h a (Finset.mem_insert_self a s)) (ih fun i hi => h i (Finset.mem_insert_of_mem hi))

/-- The reciprocal square root of a positive real. -/
theorem rsqrt_pos {r : ℝ} (hr : 0 < r) : IsReal (Ideal.rsqrt (r : EReal)) := by
  refine ⟨(Real.sqrt r)⁻¹, ?_⟩
  show (if r < 0 then (⊥ : EReal) else if r = 0 then ⊤ else (((Real.sqrt r)⁻¹ : ℝ) : EReal)) = _
  rw [if_neg (not_lt.mpr hr.le), if_neg hr.ne']

end Cert.Lib.Finite
-- ==== Proof.LibContract.lean ====
/- A general lemma file: moving factors across finite sums of extended reals whose entries are real numbers.

   The extended reals' sum and product are total, but `x · (a + b) = x · a + x · b` fails at the infinities, so a sum of
   products can be rearranged only where the entries are finite. Here, for families of REAL numbers read as extended
   reals: the coercion of a finite real sum is the sum of the coercions (`coe_sum`); a double contraction may be taken in
   either order — `Σ_i (Σ_n c_n · y_{n,i}) · w_i = Σ_n c_n · (Σ_i y_{n,i} · w_i)` (`contract_left`), the same with a constant
   factor `q` applied after the inner sum (`contract_const`), and `Σ_i (Σ_d v_d · w_{d,i}) · y_i = Σ_d (Σ_i y_i · w_{d,i}) · v_d`
   (`contract_swap`): what separates a contraction taken "weights last" from the same contraction taken "weights first".
   And two facts that need NO finiteness: a square is never negative on the extended reals (`mul_self_nonneg`), and
   `√a · √a = a` for every extended real `a ≥ 0`, `+∞` included (`sqrt_mul_self`), so a squared length taken as a sum of
   squares and taken as the square of its root are the same. -/
import Idealize.ShloMosaic.PureOps.Ideal

namespace Cert.Lib.Contract

open Idealize.ShloMosaic

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A square is never negative, at the infinities too. -/
theorem mul_self_nonneg (a : EReal) : 0 ≤ a * a := by
  induction a using EReal.rec with
  | bot => simp
  | top => simp
  | coe r => rw [← EReal.coe_mul]; exact_mod_cast _root_.mul_self_nonneg r

/-- A finite sum of squares is never negative. -/
theorem sum_mul_self_nonneg {ι : Type} (s : Finset ι) (f : ι → EReal) : 0 ≤ ∑ i ∈ s, f i * f i :=
  Finset.sum_nonneg fun i _ => mul_self_nonneg (f i)

/-- The root of a non-negative extended real, squared, is that extended real. -/
theorem sqrt_mul_self {a : EReal} (h : 0 ≤ a) : Ideal.sqrt a * Ideal.sqrt a = a := by
  induction a using EReal.rec with
  | bot => exact absurd h (by simp)
  | top => simp
  | coe r =>
    have hr : 0 ≤ r := by exact_mod_cast h
    rw [Ideal.sqrt_coe, if_neg (not_lt.mpr hr), ← EReal.coe_mul, Real.mul_self_sqrt hr]

section
variable {N I D : Type} [Fintype N] [Fintype I] [Fintype D]

theorem contract_left (c : N → ℝ) (y : N → I → ℝ) (w : I → ℝ) :
    ∑ i, (∑ n, (c n : EReal) * (y n i : EReal)) * (w i : EReal)
      = ∑ n, (c n : EReal) * ∑ i, (y n i : EReal) * (w i : EReal) := by
  simp only [← EReal.coe_mul, ← coe_sum]
  refine congrArg _ ?_
  simp only [Finset.sum_mul, Finset.mul_sum]
  rw [Finset.sum_comm]
  exact Finset.sum_congr rfl fun n _ => Finset.sum_congr rfl fun i _ => by ring

theorem contract_const (q : ℝ) (y : N → I → ℝ) (w : I → ℝ) :
    ∑ i, ((∑ n, (y n i : EReal)) * (q : EReal)) * (w i : EReal)
      = ∑ n, (q : EReal) * ∑ i, (y n i : EReal) * (w i : EReal) := by
  simp only [← EReal.coe_mul, ← coe_sum]
  refine congrArg _ ?_
  simp only [Finset.sum_mul, Finset.mul_sum]
  rw [Finset.sum_comm]
  exact Finset.sum_congr rfl fun n _ => Finset.sum_congr rfl fun i _ => by ring

theorem contract_swap (v : D → ℝ) (w : D → I → ℝ) (y : I → ℝ) :
    ∑ i, (∑ d, (v d : EReal) * (w d i : EReal)) * (y i : EReal)
      = ∑ d, (∑ i, (y i : EReal) * (w d i : EReal)) * (v d : EReal) := by
  simp only [← EReal.coe_mul, ← coe_sum]
  refine congrArg _ ?_
  simp only [Finset.sum_mul]
  rw [Finset.sum_comm]
  exact Finset.sum_congr rfl fun d _ => Finset.sum_congr rfl fun i _ => by ring

end

end Cert.Lib.Contract
-- ==== Proof.RoutingLaw.lean ====
/-
  The two arrangements of the routing computation (Routing.lean) are one function when every input entry is a real
  number.

  Three things separate them. (1) The squared length of a vector as the sum of its squares, against the square of the
  root of that sum: on the extended reals a sum of squares is never negative, and `√a · √a = a` for every `a ≥ 0`
  (at `+∞` too), so the two squashings agree everywhere. (2) The first round's coupling: the softmax of zero logits
  over 64 outputs is `e⁰ / (64 · e⁰) = 1/64`, the constant the factored arrangement multiplies by. (3) The order of the
  contractions: `Σ_i (Σ_n c_n · y_{n,i}) · w_i = Σ_n c_n · (Σ_i y_{n,i} · w_i)` and
  `Σ_i (Σ_d v_d · w_{d,i}) · y_i = Σ_d (Σ_i y_i · w_{d,i}) · v_d`. These move a factor across a sum, which the extended
  reals allow only at finite entries; so the proof carries "every entry is a real" from the inputs through each stage —
  squashing divides by `(1/2 + a)(ε + √a) > 0`, a softmax divides by a sum of exponentials `> 0` after subtracting a
  maximum that is a real because the row is not empty — and does the rearranging in ℝ.
-/
import proofs.«122644_j6313601925542_2_alg».proof.Proof.Routing
import proofs.«122644_j6313601925542_2_alg».proof.Proof.LibFinite
import proofs.«122644_j6313601925542_2_alg».proof.Proof.LibContract
import Mathlib.Data.Finset.Fold

noncomputable section

namespace Cert.Routing

open Idealize.ShloMosaic Cert.Lib.Finite
open Cert.Lib.Contract (coe_sum sqrt_mul_self contract_left contract_const contract_swap)

/-! ## The constants -/

theorem half_eq : half = ((1 / 2 : ℝ) : EReal) := by
  unfold half
  simp [Ideal.ofBits, Ideal.ieee]
  rw [← EReal.coe_mul]
  norm_num

theorem inv64_eq : inv64 = ((1 / 64 : ℝ) : EReal) := by
  unfold inv64
  simp [Ideal.ofBits, Ideal.ieee]
  rw [← EReal.coe_mul]
  norm_num

theorem negInf_eq : negInf = ⊥ := by
  unfold negInf
  simp [Ideal.ofBits, Ideal.ieee]

/-- ε is a positive real (its exact value, 11258999 · 2⁻⁵⁰, plays no part). -/
theorem eps_pos : ∃ r : ℝ, 0 < r ∧ eps = (r : EReal) := by
  refine ⟨11258999 * (2 ^ 50)⁻¹, by positivity, ?_⟩
  unfold eps
  simp [Ideal.ofBits, Ideal.ieee]

/-! ## The squared length -/

theorem ssq_nonneg {k : Nat} (f : Fin k → EReal) : 0 ≤ ssq f :=
  Cert.Lib.Contract.sum_mul_self_nonneg Finset.univ f

/-- The two squashings are one function, on every extended-real vector. -/
theorem squash'_eq {k : Nat} (f : Fin k → EReal) : squash' f = squash f := by
  funext j
  unfold squash' squash
  rw [sqrt_mul_self (ssq_nonneg f)]

/-! ## Every stage keeps the entries real -/

theorem squash_real {k : Nat} {f : Fin k → EReal} (hf : ∀ j, IsReal (f j)) (j : Fin k) : IsReal (squash f j) := by
  choose g hg using hf
  obtain ⟨e, he, hee⟩ := eps_pos
  have ha : 0 ≤ ∑ j, g j * g j := Finset.sum_nonneg fun j _ => _root_.mul_self_nonneg (g j)
  have hss : ssq f = ((∑ j, g j * g j : ℝ) : EReal) := by
    unfold ssq
    rw [coe_sum]
    exact Finset.sum_congr rfl fun j _ => by rw [hg j, EReal.coe_mul]
  unfold squash sq
  rw [hss, Ideal.sqrt_coe, if_neg (not_lt.mpr ha), half_eq, hee, ← EReal.coe_add, ← EReal.coe_add, ← EReal.coe_mul]
  refine div_real (mul (coe _) ⟨g j, hg j⟩) ?_
  have h1 : 0 < 1 / 2 + ∑ j, g j * g j := by linarith
  have h2 : 0 < e + Real.sqrt (∑ j, g j * g j) := add_pos_of_pos_of_nonneg he (Real.sqrt_nonneg _)
  exact (mul_pos h1 h2).ne'

theorem mx_real {k : Nat} (hk : 0 < k) {l : Fin k → EReal} (hl : ∀ o, IsReal (l o)) : IsReal (mx l) := by
  unfold mx
  rw [negInf_eq, max_eq_right bot_le]
  have hlt : Finset.univ.fold max ⊥ l < ⊤ :=
    (Finset.fold_max_lt _).mpr ⟨bot_lt_top, fun o _ => by obtain ⟨r, hr⟩ := hl o; rw [hr]; exact EReal.coe_lt_top r⟩
  have hgt : ⊥ < Finset.univ.fold max ⊥ l :=
    (Finset.lt_fold_max _).mpr (Or.inr ⟨⟨0, hk⟩, Finset.mem_univ _, by
      obtain ⟨r, hr⟩ := hl ⟨0, hk⟩; rw [hr]; exact EReal.bot_lt_coe r⟩)
  exact ⟨_, (EReal.coe_toReal hlt.ne hgt.ne').symm⟩

theorem sm_real {k : Nat} (hk : 0 < k) {l : Fin k → EReal} (hl : ∀ o, IsReal (l o)) (o : Fin k) : IsReal (sm l o) := by
  obtain ⟨mr, hm⟩ := mx_real hk hl
  choose lr hlr using hl
  have he : ∀ o', Ideal.exp (l o' - mx l) = ((Real.exp (lr o' - mr) : ℝ) : EReal) := fun o' => by
    rw [hlr o', hm, ← EReal.coe_sub, Ideal.exp_coe]
  unfold sm
  simp only [he]
  rw [← coe_sum]
  refine div_real (coe _) ?_
  have hpos : 0 < ∑ o', Real.exp (lr o' - mr) :=
    Finset.sum_pos (fun o' _ => Real.exp_pos _) ⟨⟨0, hk⟩, Finset.mem_univ _⟩
  exact hpos.ne'

/-! ## The first round's coupling -/

theorem c0_eq (o : Fin 64) : c0 o = inv64 := by
  have hm : mx (fun _ : Fin 64 => (0 : EReal)) = 0 := by
    unfold mx
    rw [negInf_eq, max_eq_right bot_le]
    exact le_antisymm ((Finset.fold_max_le _).mpr ⟨bot_le, fun _ _ => le_rfl⟩)
      ((Finset.le_fold_max _).mpr (Or.inr ⟨0, Finset.mem_univ _, le_rfl⟩))
  have h1 : Ideal.exp ((0 : EReal) - 0) = ((1 : ℝ) : EReal) := by
    rw [← EReal.coe_zero, ← EReal.coe_sub, sub_zero, Ideal.exp_coe, Real.exp_zero]
  have h64 : (∑ _o' : Fin 64, ((1 : ℝ) : EReal)) = ((64 : ℝ) : EReal) := by
    rw [← coe_sum]; simp
  unfold c0 sm
  dsimp only
  rw [hm]
  simp only [h1]
  rw [h64, Ideal.div_coe (by norm_num : (64 : ℝ) ≠ 0), ← EReal.coe_mul, inv64_eq, one_mul]

/-! ## The two arrangements agree -/

theorem outK_eq_outR {x : Fin 2048 → Fin 16 → EReal} {w : Fin 64 → Fin 32 → Fin 16 → EReal}
    (hx : ∀ n i, IsReal (x n i)) (hw : ∀ o d i, IsReal (w o d i)) : outK x w = outR x w := by
  have hxs : ∀ n i, IsReal (xs x n i) := fun n i => squash_real (hx n) i
  have hxs' : xs' x = xs x := by
    funext n i; unfold xs' xs; rw [squash'_eq]
  choose yr hyr using hxs
  choose wr hwr using hw
  -- the weighted predictions of a coupling with real entries
  have hS : ∀ c : Fin 2048 → Fin 64 → EReal, (∀ n o, IsReal (c n o)) → sR x w c = sK x w c := by
    intro c hc
    choose cr hcr using hc
    funext o d
    unfold sR sK u tK
    rw [hxs']
    simp only [hcr, hyr, hwr]
    exact (contract_left (fun n => cr n o) yr (fun i => wr o d i)).symm
  -- the agreement with an output pose with real entries
  have hA : ∀ v : Fin 64 → Fin 32 → EReal, (∀ o d, IsReal (v o d)) → ∀ n o, aR x w v n o = aK x w v o n := by
    intro v hv n o
    choose vr hvr using hv
    unfold aR aK u qK
    rw [hxs']
    simp only [hvr, hyr, hwr]
    exact (contract_swap (fun d => vr o d) (fun d i => wr o d i) (fun i => yr n i)).symm
  -- the first round
  have hS0 : sR x w (fun _ => c0) = s0K x w := by
    funext o d
    unfold sR s0K u t0
    rw [hxs']
    simp only [c0_eq, inv64_eq, hyr, hwr]
    exact (contract_const (1 / 64) yr (fun i => wr o d i)).symm
  -- realness of each stage
  have rS : ∀ c : Fin 2048 → Fin 64 → EReal, (∀ n o, IsReal (c n o)) → ∀ o d, IsReal (sK x w c o d) := by
    intro c hc o d
    unfold sK tK
    exact sum _ _ fun i _ => mul (sum _ _ fun n _ => mul (hc n o) ⟨_, hyr n i⟩) ⟨_, hwr o d i⟩
  have rS0 : ∀ o d, IsReal (s0K x w o d) := by
    intro o d
    unfold s0K t0
    exact sum _ _ fun i _ => mul (mul (sum _ _ fun n _ => ⟨_, hyr n i⟩) ⟨_, inv64_eq⟩) ⟨_, hwr o d i⟩
  have rA : ∀ v : Fin 64 → Fin 32 → EReal, (∀ o d, IsReal (v o d)) → ∀ o n, IsReal (aK x w v o n) := by
    intro v hv o n
    unfold aK qK
    exact sum _ _ fun i _ => mul (sum _ _ fun d _ => mul (hv o d) ⟨_, hwr o d i⟩) ⟨_, hyr n i⟩
  -- round one
  have e0 : v0R x w = v0K x w := by
    funext o d; unfold v0R v0K; rw [squash'_eq, hS0]
  have r0 : ∀ o d, IsReal (v0K x w o d) := fun o d => squash_real (rS0 o) d
  have e1 : ∀ n o, l1R x w n o = l1K x w o n := by
    intro n o; unfold l1R l1K; rw [e0]; exact hA _ r0 n o
  have rl1 : ∀ o n, IsReal (l1K x w o n) := fun o n => rA _ r0 o n
  -- round two
  have ec1 : c1R x w = c1K x w := by
    funext n o; unfold c1R c1K
    exact congrArg (fun l => sm l o) (funext fun o' => e1 n o')
  have rc1 : ∀ n o, IsReal (c1K x w n o) := fun n o => sm_real (by norm_num) (fun o' => rl1 o' n) o
  have e2 : v1R x w = v1K x w := by
    funext o d; unfold v1R v1K; rw [squash'_eq, ec1, hS _ rc1]
  have r1 : ∀ o d, IsReal (v1K x w o d) := fun o d => squash_real (rS _ rc1 o) d
  have el2 : ∀ n o, l2R x w n o = l2K x w o n := by
    intro n o; unfold l2R l2K; rw [e1, e2, hA _ r1]
  have rl2 : ∀ o n, IsReal (l2K x w o n) := fun o n => add (rl1 o n) (rA _ r1 o n)
  -- round three
  have ec2 : c2R x w = c2K x w := by
    funext n o; unfold c2R c2K
    exact congrArg (fun l => sm l o) (funext fun o' => el2 n o')
  have rc2 : ∀ n o, IsReal (c2K x w n o) := fun n o => sm_real (by norm_num) (fun o' => rl2 o' n) o
  funext o d
  unfold outK outR
  rw [squash'_eq, ec2, hS _ rc2]

end Cert.Routing

end
-- ==== Proof.KernelRead.lean ====
/-
  The capsule-routing kernel's stored block, read at one index.

  The kernel body takes one block of the transposed input, `x0 : [8 batches, 16 input coordinates, 2048 input
  capsules]`, and the whole transposed weight, `x1 : [64 output capsules, 16 input coordinates, 32 output
  coordinates]`, and stores a block `[8, 64, 32]`. This module shows that the stored block at `(b, o, d)` is the
  factored arrangement of three-round dynamic routing (`Cert.Routing.outK`) for batch element `b`, evaluated at
  output capsule `o` and output coordinate `d`.

  The body is eight kinds of stage, some used three times. Each stage is restated here as a small vector function made
  of the same operations in the same order, and read at an index given by coordinates:
  * squashing along the input-coordinate axis (the squared length as a sum of squares over that axis, its root, and
    the quotient `(|f|² · f) / ((1/2 + |f|²) · (ε + |f|))`);
  * the first round's contraction of the squashed inputs over the capsules, times the uniform coupling 1/64;
  * the weighted predictions `s = Σ_i t · w`; squashing along the output-coordinate axis;
  * the weight contracted with an output pose, `q = Σ_d v · w`; the agreement `Σ_i q · xs` (a batched matrix
    product into a zero accumulator, so just the sum); the softmax over the output capsules, which subtracts
    `max (-∞) (fold of max from -∞)` before the exponential; and the coupling contracted with the squashed inputs,
    `t = Σ_n c · xs` (again a batched matrix product into zero).
  Layout operations (adding a unit axis, broadcasting along it) only move coordinates; a change of number format is
  the identity on extended reals. The constants stay as the binary32 words the program carries.
-/
import proofs.«122644_j6313601925542_2_alg».proof.Proof.Gen.KernelIdeal.Frame
import proofs.«122644_j6313601925542_2_alg».proof.Proof.Routing
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KRead

open Idealize.ShloMosaic Idealize.ShloMosaic.ValueIdx Cert.KernelIdeal Cert.KernelIdeal.Gen
open scoped BigOperators

/-! ## Layout operations at an index given by coordinates

A broadcast along a unit axis reads the operand at coordinate `0` of that axis; a shape cast that adds a unit axis reads
the operand at the remaining coordinates (the two row-major positions agree because the unit coordinate is `0`). -/

section Layout
variable {α : Type}

/-- `[a, 1, c]` broadcast to `[a, b, c]`. -/
theorem bc3_mid {a b c : ℕ} (v : (⟨3, ![a, 1, c]⟩ : Shape).Idx → α)
    (h : (⟨3, ![a, 1, c]⟩ : Shape).Broadcasts ⟨3, ![a, b, c]⟩) (x : Fin a) (y : Fin b) (z : Fin c) :
    broadcastTo ⟨3, ![a, b, c]⟩ v h (ix3 x y z) = v (ix3 x (0 : Fin 1) z) := by
  refine broadcastTo_apply v h (ix3 x y z) (ix3 x (0 : Fin 1) z) fun ax => ?_
  match ax with
  | ⟨0, _⟩ =>
    show x.val = if a = 1 then 0 else x.val
    split
    · have := x.isLt; omega
    · rfl
  | ⟨1, _⟩ => rfl
  | ⟨2, _⟩ =>
    show z.val = if c = 1 then 0 else z.val
    split
    · have := z.isLt; omega
    · rfl

/-- `[a, b, 1]` broadcast to `[a, b, c]`. -/
theorem bc3_last {a b c : ℕ} (v : (⟨3, ![a, b, 1]⟩ : Shape).Idx → α)
    (h : (⟨3, ![a, b, 1]⟩ : Shape).Broadcasts ⟨3, ![a, b, c]⟩) (x : Fin a) (y : Fin b) (z : Fin c) :
    broadcastTo ⟨3, ![a, b, c]⟩ v h (ix3 x y z) = v (ix3 x y (0 : Fin 1)) := by
  refine broadcastTo_apply v h (ix3 x y z) (ix3 x y (0 : Fin 1)) fun ax => ?_
  match ax with
  | ⟨0, _⟩ =>
    show x.val = if a = 1 then 0 else x.val
    split
    · have := x.isLt; omega
    · rfl
  | ⟨1, _⟩ =>
    show y.val = if b = 1 then 0 else y.val
    split
    · have := y.isLt; omega
    · rfl
  | ⟨2, _⟩ => rfl

/-- `[a, b, c, 1]` broadcast to `[a, b, c, d]`. -/
theorem bc4_last {a b c d : ℕ} (v : (⟨4, ![a, b, c, 1]⟩ : Shape).Idx → α)
    (h : (⟨4, ![a, b, c, 1]⟩ : Shape).Broadcasts ⟨4, ![a, b, c, d]⟩) (x : Fin a) (y : Fin b) (z : Fin c) (w : Fin d) :
    broadcastTo ⟨4, ![a, b, c, d]⟩ v h (ix4 x y z w) = v (ix4 x y z (0 : Fin 1)) := by
  refine broadcastTo_apply v h (ix4 x y z w) (ix4 x y z (0 : Fin 1)) fun ax => ?_
  match ax with
  | ⟨0, _⟩ =>
    show x.val = if a = 1 then 0 else x.val
    split
    · have := x.isLt; omega
    · rfl
  | ⟨1, _⟩ =>
    show y.val = if b = 1 then 0 else y.val
    split
    · have := y.isLt; omega
    · rfl
  | ⟨2, _⟩ =>
    show z.val = if c = 1 then 0 else z.val
    split
    · have := z.isLt; omega
    · rfl
  | ⟨3, _⟩ => rfl

/-- `[1, b, c, d]` broadcast to `[a, b, c, d]`. -/
theorem bc4_first {a b c d : ℕ} (v : (⟨4, ![1, b, c, d]⟩ : Shape).Idx → α)
    (h : (⟨4, ![1, b, c, d]⟩ : Shape).Broadcasts ⟨4, ![a, b, c, d]⟩) (x : Fin a) (y : Fin b) (z : Fin c) (w : Fin d) :
    broadcastTo ⟨4, ![a, b, c, d]⟩ v h (ix4 x y z w) = v (ix4 (0 : Fin 1) y z w) := by
  refine broadcastTo_apply v h (ix4 x y z w) (ix4 (0 : Fin 1) y z w) fun ax => ?_
  match ax with
  | ⟨0, _⟩ => rfl
  | ⟨1, _⟩ =>
    show y.val = if b = 1 then 0 else y.val
    split
    · have := y.isLt; omega
    · rfl
  | ⟨2, _⟩ =>
    show z.val = if c = 1 then 0 else z.val
    split
    · have := z.isLt; omega
    · rfl
  | ⟨3, _⟩ =>
    show w.val = if d = 1 then 0 else w.val
    split
    · have := w.isLt; omega
    · rfl

/-- `[a, b, 1, d]` broadcast to `[a, b, c, d]`. -/
theorem bc4_third {a b c d : ℕ} (v : (⟨4, ![a, b, 1, d]⟩ : Shape).Idx → α)
    (h : (⟨4, ![a, b, 1, d]⟩ : Shape).Broadcasts ⟨4, ![a, b, c, d]⟩) (x : Fin a) (y : Fin b) (z : Fin c) (w : Fin d) :
    broadcastTo ⟨4, ![a, b, c, d]⟩ v h (ix4 x y z w) = v (ix4 x y (0 : Fin 1) w) := by
  refine broadcastTo_apply v h (ix4 x y z w) (ix4 x y (0 : Fin 1) w) fun ax => ?_
  match ax with
  | ⟨0, _⟩ =>
    show x.val = if a = 1 then 0 else x.val
    split
    · have := x.isLt; omega
    · rfl
  | ⟨1, _⟩ =>
    show y.val = if b = 1 then 0 else y.val
    split
    · have := y.isLt; omega
    · rfl
  | ⟨2, _⟩ => rfl
  | ⟨3, _⟩ =>
    show w.val = if d = 1 then 0 else w.val
    split
    · have := w.isLt; omega
    · rfl

/-- `[a, c]` cast to `[a, 1, c]`. -/
theorem sc_ac_a1c {a c : ℕ} (v : (⟨2, ![a, c]⟩ : Shape).Idx → α)
    (h : (⟨2, ![a, c]⟩ : Shape).ShapeCasts ⟨3, ![a, 1, c]⟩) (x : Fin a) (u : Fin 1) (z : Fin c) :
    shapeCast ⟨3, ![a, 1, c]⟩ v h (ix3 x u z) = v (ix2 x z) :=
  shapeCast_apply v h _ _ (by
    have hu : u.val = 0 := by omega
    rw [Shape.rowMajor_val_three, Shape.rowMajor_val_two]
    show x.val * c + z.val = (x.val * 1 + u.val) * c + z.val
    rw [hu, Nat.mul_one, Nat.add_zero])

/-- `[a, b]` cast to `[a, b, 1]`. -/
theorem sc_ab_ab1 {a b : ℕ} (v : (⟨2, ![a, b]⟩ : Shape).Idx → α)
    (h : (⟨2, ![a, b]⟩ : Shape).ShapeCasts ⟨3, ![a, b, 1]⟩) (x : Fin a) (y : Fin b) (u : Fin 1) :
    shapeCast ⟨3, ![a, b, 1]⟩ v h (ix3 x y u) = v (ix2 x y) :=
  shapeCast_apply v h _ _ (by
    have hu : u.val = 0 := by omega
    rw [Shape.rowMajor_val_three, Shape.rowMajor_val_two]
    show x.val * b + y.val = (x.val * b + y.val) * 1 + u.val
    rw [hu, Nat.mul_one, Nat.add_zero])

/-- `[a, b, c]` cast to `[a, b, c, 1]`. -/
theorem sc_abc_abc1 {a b c : ℕ} (v : (⟨3, ![a, b, c]⟩ : Shape).Idx → α)
    (h : (⟨3, ![a, b, c]⟩ : Shape).ShapeCasts ⟨4, ![a, b, c, 1]⟩) (x : Fin a) (y : Fin b) (z : Fin c) (u : Fin 1) :
    shapeCast ⟨4, ![a, b, c, 1]⟩ v h (ix4 x y z u) = v (ix3 x y z) :=
  shapeCast_apply v h _ _ (by
    have hu : u.val = 0 := by omega
    rw [Shape.rowMajor_val_four, Shape.rowMajor_val_three]
    show (x.val * b + y.val) * c + z.val = ((x.val * b + y.val) * c + z.val) * 1 + u.val
    rw [hu, Nat.mul_one, Nat.add_zero])

/-- `[a, b, d]` cast to `[a, b, 1, d]`. -/
theorem sc_abd_ab1d {a b d : ℕ} (v : (⟨3, ![a, b, d]⟩ : Shape).Idx → α)
    (h : (⟨3, ![a, b, d]⟩ : Shape).ShapeCasts ⟨4, ![a, b, 1, d]⟩) (x : Fin a) (y : Fin b) (u : Fin 1) (w : Fin d) :
    shapeCast ⟨4, ![a, b, 1, d]⟩ v h (ix4 x y u w) = v (ix3 x y w) :=
  shapeCast_apply v h _ _ (by
    have hu : u.val = 0 := by omega
    rw [Shape.rowMajor_val_four, Shape.rowMajor_val_three]
    show (x.val * b + y.val) * d + w.val = ((x.val * b + y.val) * 1 + u.val) * d + w.val
    rw [hu, Nat.mul_one, Nat.add_zero])

end Layout

/-! ## One-axis reductions at an index given by coordinates

A sum over one axis is the sum over that axis's coordinate with the other coordinates kept; a maximum over one axis is
the fold of `max` from the starting word over that coordinate. -/

section Reductions

/-- Rank 3, the middle axis summed. -/
theorem red3_1 {a b c : ℕ} (src : FVec Ideal ⟨3, ![a, b, c]⟩ .f32)
    (h : (⟨3, ![a, b, c]⟩ : Shape).Reduces [1] ⟨2, ![a, c]⟩) (hφ : FKind.Formats .f32)
    (hacc : (0x00000000#32 : BitVec (FTy.bits .f32)) = FKind.add.neutral .f32 hφ) (x : Fin a) (z : Fin c) :
    multiReduction (F := Ideal) .add [1] ⟨2, ![a, c]⟩ src 0x00000000#32 h hφ hacc (ix2 x z)
      = ∑ k : Fin b, src (ix3 x k z) :=
  (Ideal.multiReduction_add_single src _ h hφ hacc (ix2 x z)).trans
    (Finset.sum_congr rfl fun k _ => congrArg src (funext fun ax => Fin.ext (by
      match ax with | ⟨0, _⟩ => rfl | ⟨1, _⟩ => rfl | ⟨2, _⟩ => rfl)))

/-- Rank 3, the last axis summed. -/
theorem red3_2 {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec (FTy.bits .f32)) = FKind.add.neutral .f32 hφ) (x : Fin a) (y : Fin b) :
    multiReduction (F := Ideal) .add [2] ⟨2, ![a, b]⟩ src 0x00000000#32 h hφ hacc (ix2 x y)
      = ∑ k : Fin c, src (ix3 x y k) :=
  (Ideal.multiReduction_add_single src _ h hφ hacc (ix2 x y)).trans
    (Finset.sum_congr rfl fun k _ => congrArg src (funext fun ax => Fin.ext (by
      match ax with | ⟨0, _⟩ => rfl | ⟨1, _⟩ => rfl | ⟨2, _⟩ => rfl)))

/-- Rank 4, the third axis summed. -/
theorem red4_2 {a b c d : ℕ} (src : FVec Ideal ⟨4, ![a, b, c, d]⟩ .f32)
    (h : (⟨4, ![a, b, c, d]⟩ : Shape).Reduces [2] ⟨3, ![a, b, d]⟩) (hφ : FKind.Formats .f32)
    (hacc : (0x00000000#32 : BitVec (FTy.bits .f32)) = FKind.add.neutral .f32 hφ) (x : Fin a) (y : Fin b) (w : Fin d) :
    multiReduction (F := Ideal) .add [2] ⟨3, ![a, b, d]⟩ src 0x00000000#32 h hφ hacc (ix3 x y w)
      = ∑ k : Fin c, src (ix4 x y k w) :=
  (Ideal.multiReduction_add_single src _ h hφ hacc (ix3 x y w)).trans
    (Finset.sum_congr rfl fun k _ => congrArg src (funext fun ax => Fin.ext (by
      match ax with | ⟨0, _⟩ => rfl | ⟨1, _⟩ => rfl | ⟨2, _⟩ => rfl | ⟨3, _⟩ => rfl)))

/-- Rank 4, the last axis summed. -/
theorem red4_3 {a b c d : ℕ} (src : FVec Ideal ⟨4, ![a, b, c, d]⟩ .f32)
    (h : (⟨4, ![a, b, c, d]⟩ : Shape).Reduces [3] ⟨3, ![a, b, c]⟩) (hφ : FKind.Formats .f32)
    (hacc : (0x00000000#32 : BitVec (FTy.bits .f32)) = FKind.add.neutral .f32 hφ) (x : Fin a) (y : Fin b) (z : Fin c) :
    multiReduction (F := Ideal) .add [3] ⟨3, ![a, b, c]⟩ src 0x00000000#32 h hφ hacc (ix3 x y z)
      = ∑ k : Fin d, src (ix4 x y z k) :=
  (Ideal.multiReduction_add_single src _ h hφ hacc (ix3 x y z)).trans
    (Finset.sum_congr rfl fun k _ => congrArg src (funext fun ax => Fin.ext (by
      match ax with | ⟨0, _⟩ => rfl | ⟨1, _⟩ => rfl | ⟨2, _⟩ => rfl | ⟨3, _⟩ => rfl)))

/-- Rank 3, the maximum over the middle axis. -/
theorem redmax3_1 {a b c : ℕ} (src : FVec Ideal ⟨3, ![a, b, c]⟩ .f32)
    (h : (⟨3, ![a, b, c]⟩ : Shape).Reduces [1] ⟨2, ![a, c]⟩) (hφ : FKind.Formats .f32)
    (hacc : (0xFF800000#32 : BitVec (FTy.bits .f32)) = FKind.maximumf.neutral .f32 hφ) (x : Fin a) (z : Fin c) :
    multiReduction (F := Ideal) .maximumf [1] ⟨2, ![a, c]⟩ src 0xFF800000#32 h hφ hacc (ix2 x z)
      = (Finset.univ : Finset (Fin b)).fold max (Ideal.ofBits .f32 0xFF800000#32) (fun k => src (ix3 x k z)) :=
  (Ideal.multiReduction_maximumf_single src _ h hφ hacc (ix2 x z)).trans
    (congrArg (Finset.fold max (Ideal.ofBits .f32 0xFF800000#32) · (Finset.univ : Finset (Fin b)))
      (funext fun k => congrArg src (funext fun ax => Fin.ext (by
        match ax with | ⟨0, _⟩ => rfl | ⟨1, _⟩ => rfl | ⟨2, _⟩ => rfl))))

end Reductions

/-! ## The sums, the maximum and the two batched products, named

Each is one operation of the body with its side conditions filled in, so that it can be read at an index by name. -/

section Named

/-- The sum over one axis (an `add` reduction from the zero word). -/
def sumAx {s t : Shape} (a : Fin s.rank) (h : s.Reduces [a] t) (src : FVec Ideal s .f32) : FVec Ideal t .f32 :=
  multiReduction .add [a] t src 0x00000000#32 h (.inl rfl) rfl

/-- The maximum over one axis (a `maximumf` reduction from the word of -∞). -/
def maxAx {s t : Shape} (a : Fin s.rank) (h : s.Reduces [a] t) (src : FVec Ideal s .f32) : FVec Ideal t .f32 :=
  multiReduction .maximumf [a] t src 0xFF800000#32 h (.inl rfl) rfl

theorem sumAx3_1 {a b c : ℕ} (h : (⟨3, ![a, b, c]⟩ : Shape).Reduces [1] ⟨2, ![a, c]⟩)
    (src : FVec Ideal ⟨3, ![a, b, c]⟩ .f32) (x : Fin a) (z : Fin c) :
    sumAx 1 h src (ix2 x z) = ∑ k : Fin b, src (ix3 x k z) := red3_1 src h _ _ x z

theorem sumAx3_2 {a b c : ℕ} (h : (⟨3, ![a, b, c]⟩ : Shape).Reduces [2] ⟨2, ![a, b]⟩)
    (src : FVec Ideal ⟨3, ![a, b, c]⟩ .f32) (x : Fin a) (y : Fin b) :
    sumAx 2 h src (ix2 x y) = ∑ k : Fin c, src (ix3 x y k) := red3_2 src h _ _ x y

theorem sumAx4_2 {a b c d : ℕ} (h : (⟨4, ![a, b, c, d]⟩ : Shape).Reduces [2] ⟨3, ![a, b, d]⟩)
    (src : FVec Ideal ⟨4, ![a, b, c, d]⟩ .f32) (x : Fin a) (y : Fin b) (w : Fin d) :
    sumAx 2 h src (ix3 x y w) = ∑ k : Fin c, src (ix4 x y k w) := red4_2 src h _ _ x y w

theorem sumAx4_3 {a b c d : ℕ} (h : (⟨4, ![a, b, c, d]⟩ : Shape).Reduces [3] ⟨3, ![a, b, c]⟩)
    (src : FVec Ideal ⟨4, ![a, b, c, d]⟩ .f32) (x : Fin a) (y : Fin b) (z : Fin c) :
    sumAx 3 h src (ix3 x y z) = ∑ k : Fin d, src (ix4 x y z k) := red4_3 src h _ _ x y z

theorem maxAx3_1 {a b c : ℕ} (h : (⟨3, ![a, b, c]⟩ : Shape).Reduces [1] ⟨2, ![a, c]⟩)
    (src : FVec Ideal ⟨3, ![a, b, c]⟩ .f32) (x : Fin a) (z : Fin c) :
    maxAx 1 h src (ix2 x z)
      = (Finset.univ : Finset (Fin b)).fold max (Ideal.ofBits .f32 0xFF800000#32) (fun k => src (ix3 x k z)) :=
  redmax3_1 src h _ _ x z

/-- The elementwise operations read at an index: a root, an exponential, a product, a sum, a difference, a quotient
    and a maximum of vectors are those of the elements; a broadcast scalar reads its value everywhere; a narrowing
    change of format is the identity on extended reals; a word denotes the extended real it encodes. -/
theorem sqrt_at {s : Shape} (v : FVec Ideal s .f32) (i : s.Idx) : sqrt v i = Ideal.sqrt (v i) :=
  (rfl : sqrt v i = Ideal.sqrt (v i)).trans rfl
theorem exp_at {s : Shape} (v : FVec Ideal s .f32) (i : s.Idx) : exp v i = Ideal.exp (v i) :=
  (rfl : exp v i = Ideal.exp (v i)).trans rfl
theorem word_eq (w : BitVec 32) : (Scalar.ofBits .f32 w : Ideal .f32) = Ideal.ofBits .f32 w :=
  (rfl : (Scalar.ofBits .f32 w : Ideal .f32) = Ideal.ofBits .f32 w).trans rfl
theorem mulf_at {s : Shape} (a b : FVec Ideal s .f32) (i : s.Idx) : mulf a b i = a i * b i :=
  (mulf_apply a b i).trans rfl
theorem addf_at {s : Shape} (a b : FVec Ideal s .f32) (i : s.Idx) : addf a b i = a i + b i :=
  (addf_apply a b i).trans rfl
theorem subf_at {s : Shape} (a b : FVec Ideal s .f32) (i : s.Idx) : subf a b i = a i - b i :=
  (subf_apply a b i).trans rfl
theorem divf_at {s : Shape} (a b : FVec Ideal s .f32) (i : s.Idx) : divf a b i = Ideal.div (a i) (b i) :=
  (divf_apply a b i).trans rfl
theorem maximumf_at {s : Shape} (a b : FVec Ideal s .f32) (i : s.Idx) : maximumf a b i = max (a i) (b i) :=
  (maximumf_apply a b i).trans rfl
theorem broadcast_at {s : Shape} (x : Ideal .f32) (i : s.Idx) : broadcast s x i = x :=
  (broadcast_apply x i).trans rfl
theorem truncf_at {s : Shape} (a : FVec Ideal s .f32) (h : FTy.bits .bf16 < FTy.bits .f32) (i : s.Idx) :
    (truncf .bf16 a h : FVec Ideal s .bf16) i = a i :=
  (truncf_apply a h i).trans rfl

end Named

variable [Cert.KernelIdeal.Facts]

/-! ## The stages

Each is a run of consecutive operations of the body, in the body's order, as a function of the values it reads. -/

/-- Squashing along the input-coordinate axis of an `[8, 16, 2048]` block. -/
def squashI (v0 : FVec Ideal S8x16x2048 .f32) : FVec Ideal S8x16x2048 .f32 :=
  have v1 : FVec Ideal S8x16x2048 .f32 := shapeCast S8x16x2048 v0 Facts₀.shapeCasts_S8x16x2048_S8x16x2048
  have v2 : FVec Ideal S8x16x2048 .f32 := mulf v1 v1
  have v3 : FVec Ideal S8x2048 .f32 := sumAx 1 Facts₀.reduces_S8x16x2048_S8x2048 v2
  have v4 : FVec Ideal S8x1x2048 .f32 := shapeCast S8x1x2048 v3 Facts₀.shapeCasts_S8x2048_S8x1x2048
  have v5 : FVec Ideal S8x1x2048 .f32 := sqrt v4
  have v6 : FVec Ideal S8x16x2048 .f32 := broadcastTo S8x16x2048 v4 Facts₀.broadcasts_S8x1x2048_S8x16x2048
  have v7 : FVec Ideal S8x16x2048 .f32 := mulf v6 v1
  have cst_2 : Ideal .f32 := Scalar.ofBits .f32 0x3F000000#32
  have v8 : FVec Ideal S8x1x2048 .f32 := broadcast S8x1x2048 cst_2
  have v9 : FVec Ideal S8x1x2048 .f32 := addf v8 v4
  have cst_3 : Ideal .f32 := Scalar.ofBits .f32 0x322BCC77#32
  have v10 : FVec Ideal S8x1x2048 .f32 := broadcast S8x1x2048 cst_3
  have v11 : FVec Ideal S8x1x2048 .f32 := addf v10 v5
  have v12 : FVec Ideal S8x1x2048 .f32 := mulf v9 v11
  have v13 : FVec Ideal S8x16x2048 .f32 := broadcastTo S8x16x2048 v12 Facts₀.broadcasts_S8x1x2048_S8x16x2048
  have v14 : FVec Ideal S8x16x2048 .f32 := divf v7 v13
  v14

/-- The first round's contraction: the squashed inputs summed over the capsules, times 1/64, one copy per output
    capsule. -/
def tFirst (xs : FVec Ideal S8x16x2048 .f32) : FVec Ideal S8x64x16 .f32 :=
  have v18 : FVec Ideal S8x16 .f32 := sumAx 2 Facts₀.reduces_S8x16x2048_S8x16 xs
  have cst_8 : Ideal .f32 := Scalar.ofBits .f32 0x3C800000#32
  have v19 : FVec Ideal S8x16 .f32 := broadcast S8x16 cst_8
  have v20 : FVec Ideal S8x16 .f32 := mulf v18 v19
  have v21 : FVec Ideal S8x1x16 .f32 := shapeCast S8x1x16 v20 Facts₀.shapeCasts_S8x16_S8x1x16
  have v22 : FVec Ideal S8x1x16 .f32 := shapeCast S8x1x16 v21 Facts₀.shapeCasts_S8x1x16_S8x1x16
  have v23 : FVec Ideal S8x64x16 .f32 := broadcastTo S8x64x16 v22 Facts₀.broadcasts_S8x1x16_S8x64x16
  v23

/-- The weighted predictions from a contraction `t` and the weight. -/
def sOfT (t : FVec Ideal S8x64x16 .f32) (w : FVec Ideal S64x16x32 .f32) : FVec Ideal S8x64x32 .f32 :=
  have v24 : FVec Ideal S8x64x16x1 .f32 := shapeCast S8x64x16x1 t Facts₀.shapeCasts_S8x64x16_S8x64x16x1
  have v25 : FVec Ideal S1x64x16x32 .f32 := shapeCast S1x64x16x32 w Facts₀.shapeCasts_S64x16x32_S1x64x16x32
  have v26 : FVec Ideal S8x64x16x32 .f32 := broadcastTo S8x64x16x32 v24 Facts₀.broadcasts_S8x64x16x1_S8x64x16x32
  have v27 : FVec Ideal S8x64x16x32 .f32 := broadcastTo S8x64x16x32 v25 Facts₀.broadcasts_S1x64x16x32_S8x64x16x32
  have v28 : FVec Ideal S8x64x16x32 .f32 := mulf v26 v27
  have v29 : FVec Ideal S8x64x32 .f32 := sumAx 2 Facts₀.reduces_S8x64x16x32_S8x64x32 v28
  v29

/-- Squashing along the output-coordinate axis of an `[8, 64, 32]` block. -/
def squashD (v29 : FVec Ideal S8x64x32 .f32) : FVec Ideal S8x64x32 .f32 :=
  have v30 : FVec Ideal S8x64x32 .f32 := mulf v29 v29
  have v31 : FVec Ideal S8x64 .f32 := sumAx 2 Facts₀.reduces_S8x64x32_S8x64 v30
  have v32 : FVec Ideal S8x64x1 .f32 := shapeCast S8x64x1 v31 Facts₀.shapeCasts_S8x64_S8x64x1
  have v33 : FVec Ideal S8x64x1 .f32 := sqrt v32
  have v34 : FVec Ideal S8x64x32 .f32 := broadcastTo S8x64x32 v32 Facts₀.broadcasts_S8x64x1_S8x64x32
  have v35 : FVec Ideal S8x64x32 .f32 := mulf v34 v29
  have cst_11 : Ideal .f32 := Scalar.ofBits .f32 0x3F000000#32
  have v36 : FVec Ideal S8x64x1 .f32 := broadcast S8x64x1 cst_11
  have v37 : FVec Ideal S8x64x1 .f32 := addf v36 v32
  have cst_12 : Ideal .f32 := Scalar.ofBits .f32 0x322BCC77#32
  have v38 : FVec Ideal S8x64x1 .f32 := broadcast S8x64x1 cst_12
  have v39 : FVec Ideal S8x64x1 .f32 := addf v38 v33
  have v40 : FVec Ideal S8x64x1 .f32 := mulf v37 v39
  have v41 : FVec Ideal S8x64x32 .f32 := broadcastTo S8x64x32 v40 Facts₀.broadcasts_S8x64x1_S8x64x32
  have v42 : FVec Ideal S8x64x32 .f32 := divf v35 v41
  v42

/-- An output pose with a unit axis added before its last one. -/
def castV (v42 : FVec Ideal S8x64x32 .f32) : FVec Ideal S8x64x1x32 .f32 :=
  shapeCast S8x64x1x32 v42 Facts₀.shapeCasts_S8x64x32_S8x64x1x32

/-- The weight contracted with an output pose over the output coordinates. -/
def qOfV (v43 : FVec Ideal S8x64x1x32 .f32) (w : FVec Ideal S64x16x32 .f32) : FVec Ideal S8x64x16 .f32 :=
  have v44 : FVec Ideal S1x64x16x32 .f32 := shapeCast S1x64x16x32 w Facts₀.shapeCasts_S64x16x32_S1x64x16x32
  have v45 : FVec Ideal S8x64x16x32 .f32 := broadcastTo S8x64x16x32 v43 Facts₀.broadcasts_S8x64x1x32_S8x64x16x32
  have v46 : FVec Ideal S8x64x16x32 .f32 := broadcastTo S8x64x16x32 v44 Facts₀.broadcasts_S1x64x16x32_S8x64x16x32
  have v47 : FVec Ideal S8x64x16x32 .f32 := mulf v45 v46
  have v48 : FVec Ideal S8x64x16 .f32 := sumAx 3 Facts₀.reduces_S8x64x16x32_S8x64x16 v47
  v48

/-- The agreement: a batched product of `q` with the squashed inputs over the input coordinates, into zero. -/
def agree (v48 : FVec Ideal S8x64x16 .f32) (v15 : FVec Ideal S8x16x2048 .bf16) : FVec Ideal S8x64x2048 .f32 :=
  have v49 : FVec Ideal S8x64x16 .bf16 := truncf .bf16 v48 Facts₀.bitsLt_bf16_f32
  have cst_14 : FVec Ideal S8x64x2048 .f32 := constant S8x64x2048 .f32 0x00000000#32
  have v50 : FVec Ideal S8x64x2048 .f32 := matmul dot_S8x64x16_S8x16x2048_S8x64x2048_2_1_1_2_0_0 none v49 v15 cst_14
  v50

/-- The softmax over the output capsules. -/
def softmaxO (v50 : FVec Ideal S8x64x2048 .f32) : FVec Ideal S8x64x2048 .f32 :=
  have v51 : FVec Ideal S8x2048 .f32 := maxAx 1 Facts₀.reduces_S8x64x2048_S8x2048 v50
  have cst_16 : Ideal .f32 := Scalar.ofBits .f32 0xFF800000#32
  have v52 : FVec Ideal S8x2048 .f32 := broadcast S8x2048 cst_16
  have v53 : FVec Ideal S8x2048 .f32 := maximumf v52 v51
  have v54 : FVec Ideal S8x1x2048 .f32 := shapeCast S8x1x2048 v53 Facts₀.shapeCasts_S8x2048_S8x1x2048
  have v55 : FVec Ideal S8x64x2048 .f32 := broadcastTo S8x64x2048 v54 Facts₀.broadcasts_S8x1x2048_S8x64x2048
  have v56 : FVec Ideal S8x64x2048 .f32 := subf v50 v55
  have v57 : FVec Ideal S8x64x2048 .f32 := exp v56
  have v58 : FVec Ideal S8x2048 .f32 := sumAx 1 Facts₀.reduces_S8x64x2048_S8x2048 v57
  have v59 : FVec Ideal S8x1x2048 .f32 := shapeCast S8x1x2048 v58 Facts₀.shapeCasts_S8x2048_S8x1x2048
  have v60 : FVec Ideal S8x64x2048 .f32 := broadcastTo S8x64x2048 v59 Facts₀.broadcasts_S8x1x2048_S8x64x2048
  have v61 : FVec Ideal S8x64x2048 .f32 := divf v57 v60
  v61

/-- The coupling contracted with the squashed inputs over the capsules: a batched product into zero. -/
def tOfC (v61 : FVec Ideal S8x64x2048 .f32) (v15 : FVec Ideal S8x16x2048 .bf16) : FVec Ideal S8x64x16 .f32 :=
  have v62 : FVec Ideal S8x64x2048 .bf16 := truncf .bf16 v61 Facts₀.bitsLt_bf16_f32
  have cst_18 : FVec Ideal S8x64x16 .f32 := constant S8x64x16 .f32 0x00000000#32
  have v63 : FVec Ideal S8x64x16 .f32 := matmul dot_S8x64x2048_S8x16x2048_S8x64x16_2_2_1_1_0_0 none v62 v15 cst_18
  v63

/-! ## The stages read at an index -/

theorem squashI_apply (v0 : FVec Ideal S8x16x2048 .f32) (b : Fin 8) (i : Fin 16) (n : Fin 2048) :
    squashI v0 (ix3 b i n) = Cert.Routing.squash (fun i' => v0 (ix3 b i' n)) i := by
  unfold squashI Cert.Routing.squash Cert.Routing.sq Cert.Routing.ssq Cert.Routing.half Cert.Routing.eps
  simp only [shapeCast_self, divf_at, mulf_at, addf_at, broadcast_at, bc3_mid, sc_ac_a1c, sumAx3_1, sqrt_at, word_eq]

theorem tFirst_apply (xs : FVec Ideal S8x16x2048 .f32) (b : Fin 8) (o : Fin 64) (i : Fin 16) :
    tFirst xs (ix3 b o i) = (∑ n : Fin 2048, xs (ix3 b i n)) * Cert.Routing.inv64 := by
  unfold tFirst Cert.Routing.inv64
  simp only [shapeCast_self, mulf_at, broadcast_at, bc3_mid, sc_ac_a1c, sumAx3_2, word_eq]

theorem sOfT_apply (t : FVec Ideal S8x64x16 .f32) (w : FVec Ideal S64x16x32 .f32) (b : Fin 8) (o : Fin 64) (d : Fin 32) :
    sOfT t w (ix3 b o d) = ∑ i : Fin 16, t (ix3 b o i) * w (ix3 o i d) := by
  unfold sOfT
  simp only [sumAx4_2, mulf_at, bc4_last, bc4_first, sc_abc_abc1, shapeCast_abc_1abc_apply]

theorem squashD_apply (s : FVec Ideal S8x64x32 .f32) (b : Fin 8) (o : Fin 64) (d : Fin 32) :
    squashD s (ix3 b o d) = Cert.Routing.squash (fun d' => s (ix3 b o d')) d := by
  unfold squashD Cert.Routing.squash Cert.Routing.sq Cert.Routing.ssq Cert.Routing.half Cert.Routing.eps
  simp only [divf_at, mulf_at, addf_at, broadcast_at, bc3_last, sc_ab_ab1, sumAx3_2, sqrt_at, word_eq]

theorem castV_apply (v : FVec Ideal S8x64x32 .f32) (b : Fin 8) (o : Fin 64) (u : Fin 1) (d : Fin 32) :
    castV v (ix4 b o u d) = v (ix3 b o d) :=
  sc_abd_ab1d v _ b o u d

theorem qOfV_apply (v43 : FVec Ideal S8x64x1x32 .f32) (w : FVec Ideal S64x16x32 .f32) (b : Fin 8) (o : Fin 64) (i : Fin 16) :
    qOfV v43 w (ix3 b o i) = ∑ d : Fin 32, v43 (ix4 b o (0 : Fin 1) d) * w (ix3 o i d) := by
  unfold qOfV
  simp only [sumAx4_3, mulf_at, bc4_third, bc4_first, shapeCast_abc_1abc_apply]

theorem softmaxO_apply (l : FVec Ideal S8x64x2048 .f32) (b : Fin 8) (o : Fin 64) (n : Fin 2048) :
    softmaxO l (ix3 b o n) = Cert.Routing.sm (fun o' => l (ix3 b o' n)) o := by
  unfold softmaxO Cert.Routing.sm Cert.Routing.mx Cert.Routing.negInf
  simp only [divf_at, exp_at, subf_at, maximumf_at, broadcast_at, bc3_mid, sc_ac_a1c, maxAx3_1, sumAx3_1, word_eq]

/-! ## The two batched products read at an index

Each has one batch axis (the batch element), one free axis on each side and one contracted axis; into a zero
accumulator the product at an index is the sum over the contracted coordinate. The operand indices are read off the
dimension numbers coordinate by coordinate. -/

section Products

theorem lhs1_0 (j : S8x64x2048.Idx) (q : dot_S8x64x16_S8x16x2048_S8x64x2048_2_1_1_2_0_0.contr.Idx) : (dot_S8x64x16_S8x16x2048_S8x64x2048_2_1_1_2_0_0.lhsIdx j q 0).val = (j 0).val := by
  unfold DotDims.lhsIdx
  rw [dif_pos (show (0 : Fin S8x64x16.rank) ∈ dot_S8x64x16_S8x16x2048_S8x64x2048_2_1_1_2_0_0.lhsBatch by decide)]
  rfl
theorem lhs1_1 (j : S8x64x2048.Idx) (q : dot_S8x64x16_S8x16x2048_S8x64x2048_2_1_1_2_0_0.contr.Idx) : (dot_S8x64x16_S8x16x2048_S8x64x2048_2_1_1_2_0_0.lhsIdx j q 1).val = (j 1).val := by
  unfold DotDims.lhsIdx
  rw [dif_neg (show ¬(1 : Fin S8x64x16.rank) ∈ dot_S8x64x16_S8x16x2048_S8x64x2048_2_1_1_2_0_0.lhsBatch by decide),
    dif_pos (show (1 : Fin S8x64x16.rank) ∈ dot_S8x64x16_S8x16x2048_S8x64x2048_2_1_1_2_0_0.lhsNonContracting by decide)]
  rfl
theorem lhs1_2 (j : S8x64x2048.Idx) (q : dot_S8x64x16_S8x16x2048_S8x64x2048_2_1_1_2_0_0.contr.Idx) : (dot_S8x64x16_S8x16x2048_S8x64x2048_2_1_1_2_0_0.lhsIdx j q 2).val = (q ⟨0, by decide⟩).val :=
  dot_S8x64x16_S8x16x2048_S8x64x2048_2_1_1_2_0_0.lhsIdx_val_of_single rfl j q
theorem rhs1_0 (j : S8x64x2048.Idx) (q : dot_S8x64x16_S8x16x2048_S8x64x2048_2_1_1_2_0_0.contr.Idx) : (dot_S8x64x16_S8x16x2048_S8x64x2048_2_1_1_2_0_0.rhsIdx j q 0).val = (j 0).val := by
  unfold DotDims.rhsIdx
  rw [dif_pos (show (0 : Fin S8x16x2048.rank) ∈ dot_S8x64x16_S8x16x2048_S8x64x2048_2_1_1_2_0_0.rhsBatch by decide)]
  rfl
theorem rhs1_1 (j : S8x64x2048.Idx) (q : dot_S8x64x16_S8x16x2048_S8x64x2048_2_1_1_2_0_0.contr.Idx) : (dot_S8x64x16_S8x16x2048_S8x64x2048_2_1_1_2_0_0.rhsIdx j q 1).val = (q ⟨0, by decide⟩).val :=
  dot_S8x64x16_S8x16x2048_S8x64x2048_2_1_1_2_0_0.rhsIdx_val_of_single rfl j q
theorem rhs1_2 (j : S8x64x2048.Idx) (q : dot_S8x64x16_S8x16x2048_S8x64x2048_2_1_1_2_0_0.contr.Idx) : (dot_S8x64x16_S8x16x2048_S8x64x2048_2_1_1_2_0_0.rhsIdx j q 2).val = (j 2).val := by
  unfold DotDims.rhsIdx
  rw [dif_neg (show ¬(2 : Fin S8x16x2048.rank) ∈ dot_S8x64x16_S8x16x2048_S8x64x2048_2_1_1_2_0_0.rhsBatch by decide),
    dif_pos (show (2 : Fin S8x16x2048.rank) ∈ dot_S8x64x16_S8x16x2048_S8x64x2048_2_1_1_2_0_0.rhsNonContracting by decide)]
  rfl

theorem agree_apply (q : FVec Ideal S8x64x16 .f32) (xb : FVec Ideal S8x16x2048 .bf16) (b : Fin 8) (o : Fin 64) (n : Fin 2048) :
    agree q xb (ix3 b o n) = ∑ i : Fin 16, q (ix3 b o i) * xb (ix3 b i n) := by
  unfold agree
  simp only [matmul]
  rw [Ideal.matmul_constant_zero_apply, ← Equiv.sum_comp (contrEquiv1 dot_S8x64x16_S8x16x2048_S8x64x2048_2_1_1_2_0_0 16 rfl rfl).symm]
  refine Finset.sum_congr rfl fun k _ => ?_
  have hk := contrEquiv1_symm_val dot_S8x64x16_S8x16x2048_S8x64x2048_2_1_1_2_0_0 16 rfl rfl k
  have el : dot_S8x64x16_S8x16x2048_S8x64x2048_2_1_1_2_0_0.lhsIdx (ix3 b o n) ((contrEquiv1 dot_S8x64x16_S8x16x2048_S8x64x2048_2_1_1_2_0_0 16 rfl rfl).symm k) = ix3 b o k :=
    funext fun a => Fin.ext (by
      match a with
      | ⟨0, _⟩ => exact lhs1_0 _ _
      | ⟨1, _⟩ => exact lhs1_1 _ _
      | ⟨2, _⟩ => exact (lhs1_2 _ _).trans hk)
  have er : dot_S8x64x16_S8x16x2048_S8x64x2048_2_1_1_2_0_0.rhsIdx (ix3 b o n) ((contrEquiv1 dot_S8x64x16_S8x16x2048_S8x64x2048_2_1_1_2_0_0 16 rfl rfl).symm k) = ix3 b k n :=
    funext fun a => Fin.ext (by
      match a with
      | ⟨0, _⟩ => exact rhs1_0 _ _
      | ⟨1, _⟩ => exact (rhs1_1 _ _).trans hk
      | ⟨2, _⟩ => exact rhs1_2 _ _)
  rw [el, er, truncf_at]

theorem lhs2_0 (j : S8x64x16.Idx) (q : dot_S8x64x2048_S8x16x2048_S8x64x16_2_2_1_1_0_0.contr.Idx) : (dot_S8x64x2048_S8x16x2048_S8x64x16_2_2_1_1_0_0.lhsIdx j q 0).val = (j 0).val := by
  unfold DotDims.lhsIdx
  rw [dif_pos (show (0 : Fin S8x64x2048.rank) ∈ dot_S8x64x2048_S8x16x2048_S8x64x16_2_2_1_1_0_0.lhsBatch by decide)]
  rfl
theorem lhs2_1 (j : S8x64x16.Idx) (q : dot_S8x64x2048_S8x16x2048_S8x64x16_2_2_1_1_0_0.contr.Idx) : (dot_S8x64x2048_S8x16x2048_S8x64x16_2_2_1_1_0_0.lhsIdx j q 1).val = (j 1).val := by
  unfold DotDims.lhsIdx
  rw [dif_neg (show ¬(1 : Fin S8x64x2048.rank) ∈ dot_S8x64x2048_S8x16x2048_S8x64x16_2_2_1_1_0_0.lhsBatch by decide),
    dif_pos (show (1 : Fin S8x64x2048.rank) ∈ dot_S8x64x2048_S8x16x2048_S8x64x16_2_2_1_1_0_0.lhsNonContracting by decide)]
  rfl
theorem lhs2_2 (j : S8x64x16.Idx) (q : dot_S8x64x2048_S8x16x2048_S8x64x16_2_2_1_1_0_0.contr.Idx) : (dot_S8x64x2048_S8x16x2048_S8x64x16_2_2_1_1_0_0.lhsIdx j q 2).val = (q ⟨0, by decide⟩).val :=
  dot_S8x64x2048_S8x16x2048_S8x64x16_2_2_1_1_0_0.lhsIdx_val_of_single rfl j q
theorem rhs2_0 (j : S8x64x16.Idx) (q : dot_S8x64x2048_S8x16x2048_S8x64x16_2_2_1_1_0_0.contr.Idx) : (dot_S8x64x2048_S8x16x2048_S8x64x16_2_2_1_1_0_0.rhsIdx j q 0).val = (j 0).val := by
  unfold DotDims.rhsIdx
  rw [dif_pos (show (0 : Fin S8x16x2048.rank) ∈ dot_S8x64x2048_S8x16x2048_S8x64x16_2_2_1_1_0_0.rhsBatch by decide)]
  rfl
theorem rhs2_1 (j : S8x64x16.Idx) (q : dot_S8x64x2048_S8x16x2048_S8x64x16_2_2_1_1_0_0.contr.Idx) : (dot_S8x64x2048_S8x16x2048_S8x64x16_2_2_1_1_0_0.rhsIdx j q 1).val = (j 2).val := by
  unfold DotDims.rhsIdx
  rw [dif_neg (show ¬(1 : Fin S8x16x2048.rank) ∈ dot_S8x64x2048_S8x16x2048_S8x64x16_2_2_1_1_0_0.rhsBatch by decide),
    dif_pos (show (1 : Fin S8x16x2048.rank) ∈ dot_S8x64x2048_S8x16x2048_S8x64x16_2_2_1_1_0_0.rhsNonContracting by decide)]
  rfl
theorem rhs2_2 (j : S8x64x16.Idx) (q : dot_S8x64x2048_S8x16x2048_S8x64x16_2_2_1_1_0_0.contr.Idx) : (dot_S8x64x2048_S8x16x2048_S8x64x16_2_2_1_1_0_0.rhsIdx j q 2).val = (q ⟨0, by decide⟩).val :=
  dot_S8x64x2048_S8x16x2048_S8x64x16_2_2_1_1_0_0.rhsIdx_val_of_single rfl j q

theorem tOfC_apply (c : FVec Ideal S8x64x2048 .f32) (xb : FVec Ideal S8x16x2048 .bf16) (b : Fin 8) (o : Fin 64) (i : Fin 16) :
    tOfC c xb (ix3 b o i) = ∑ n : Fin 2048, c (ix3 b o n) * xb (ix3 b i n) := by
  unfold tOfC
  simp only [matmul]
  rw [Ideal.matmul_constant_zero_apply, ← Equiv.sum_comp (contrEquiv1 dot_S8x64x2048_S8x16x2048_S8x64x16_2_2_1_1_0_0 2048 rfl rfl).symm]
  refine Finset.sum_congr rfl fun k _ => ?_
  have hk := contrEquiv1_symm_val dot_S8x64x2048_S8x16x2048_S8x64x16_2_2_1_1_0_0 2048 rfl rfl k
  have el : dot_S8x64x2048_S8x16x2048_S8x64x16_2_2_1_1_0_0.lhsIdx (ix3 b o i) ((contrEquiv1 dot_S8x64x2048_S8x16x2048_S8x64x16_2_2_1_1_0_0 2048 rfl rfl).symm k) = ix3 b o k :=
    funext fun a => Fin.ext (by
      match a with
      | ⟨0, _⟩ => exact lhs2_0 _ _
      | ⟨1, _⟩ => exact lhs2_1 _ _
      | ⟨2, _⟩ => exact (lhs2_2 _ _).trans hk)
  have er : dot_S8x64x2048_S8x16x2048_S8x64x16_2_2_1_1_0_0.rhsIdx (ix3 b o i) ((contrEquiv1 dot_S8x64x2048_S8x16x2048_S8x64x16_2_2_1_1_0_0 2048 rfl rfl).symm k) = ix3 b i k :=
    funext fun a => Fin.ext (by
      match a with
      | ⟨0, _⟩ => exact rhs2_0 _ _
      | ⟨1, _⟩ => exact rhs2_1 _ _
      | ⟨2, _⟩ => exact (rhs2_2 _ _).trans hk)
  rw [el, er, truncf_at]

end Products

/-! ## The body as a composition of the stages -/

theorem pay2_eq (v0 : Vec Ideal S8x16x2048 .f32) : k0_pay2 (F := Ideal) v0 = squashI v0 := rfl

theorem pay4_eq (v16 : Vec Ideal S64x16x32 .f32) : k0_pay4 (F := Ideal) v16 = v16 := by
  unfold k0_pay4
  exact shapeCast_self _ _

theorem pay5_eq (v0 : Vec Ideal S8x16x2048 .f32) (v16 : Vec Ideal S64x16x32 .f32) :
    k0_pay5 (F := Ideal) v0 v16 = castV (squashD (sOfT (tFirst (k0_pay2 v0)) (k0_pay4 v16))) := rfl

theorem pay6_eq (v15 : FVec Ideal S8x16x2048 .bf16) (v17 : FVec Ideal S64x16x32 .f32) (v43 : FVec Ideal S8x64x1x32 .f32) :
    k0_pay6 (F := Ideal) v15 v17 v43
      = addf (agree (qOfV v43 v17) v15)
          (agree (qOfV (castV (squashD (sOfT (tOfC (softmaxO (agree (qOfV v43 v17) v15)) v15) v17))) v17) v15) := rfl

theorem pay1_eq (v15 : FVec Ideal S8x16x2048 .bf16) (v17 : FVec Ideal S64x16x32 .f32) (v91 : FVec Ideal S8x64x2048 .f32) :
    k0_pay1 (F := Ideal) v15 v17 v91 = squashD (sOfT (tOfC (softmaxO v91) v15) v17) := rfl

/-! ## The rounds

The body's intermediate blocks, named, and each read at an index as the corresponding quantity of the factored
arrangement for batch element `b`: routing's `x n i` is the input block at `(b, i, n)`, its `w o d i` the weight at
`(o, i, d)`. -/

section Rounds
variable (x0 : FVec Ideal S8x16x2048 .f32) (x1 : FVec Ideal S64x16x32 .f32)

/-- Batch element `b` of the input block as routing's `x`. -/
abbrev xOf (b : Fin 8) : Fin 2048 → Fin 16 → EReal := fun n i => x0 (ix3 b i n)
/-- The weight as routing's `w`. -/
abbrev wOf : Fin 64 → Fin 32 → Fin 16 → EReal := fun o d i => x1 (ix3 o i d)

/-- The squashed inputs; the same block after the change of format (the identity on extended reals). -/
def kXs : FVec Ideal S8x16x2048 .f32 := squashI x0
def kXb : FVec Ideal S8x16x2048 .bf16 := truncf .bf16 (kXs x0) Facts₀.bitsLt_bf16_f32
/-- The first round's output poses. -/
def kV0 : FVec Ideal S8x64x32 .f32 := squashD (sOfT (tFirst (kXs x0)) x1)
/-- The logits after the first round. -/
def kL1 : FVec Ideal S8x64x2048 .f32 := agree (qOfV (castV (kV0 x0 x1)) x1) (kXb x0)
/-- The second round's output poses. -/
def kV1 : FVec Ideal S8x64x32 .f32 := squashD (sOfT (tOfC (softmaxO (kL1 x0 x1)) (kXb x0)) x1)
/-- The logits after the second round. -/
def kL2 : FVec Ideal S8x64x2048 .f32 := addf (kL1 x0 x1) (agree (qOfV (castV (kV1 x0 x1)) x1) (kXb x0))
/-- The third round's output poses: what the body stores. -/
def kOut : FVec Ideal S8x64x32 .f32 := squashD (sOfT (tOfC (softmaxO (kL2 x0 x1)) (kXb x0)) x1)

theorem kXs_apply (b : Fin 8) (i : Fin 16) (n : Fin 2048) :
    kXs x0 (ix3 b i n) = Cert.Routing.xs (xOf x0 b) n i := by
  unfold kXs Cert.Routing.xs
  exact squashI_apply x0 b i n

theorem kXb_apply (b : Fin 8) (i : Fin 16) (n : Fin 2048) :
    kXb x0 (ix3 b i n) = Cert.Routing.xs (xOf x0 b) n i := by
  unfold kXb
  rw [truncf_at]
  exact kXs_apply x0 b i n

theorem kV0_apply (b : Fin 8) (o : Fin 64) (d : Fin 32) :
    kV0 x0 x1 (ix3 b o d) = Cert.Routing.v0K (xOf x0 b) (wOf x1) o d := by
  unfold kV0 Cert.Routing.v0K Cert.Routing.s0K Cert.Routing.t0
  rw [squashD_apply]
  simp only [sOfT_apply, tFirst_apply, kXs_apply]

theorem kL1_apply (b : Fin 8) (o : Fin 64) (n : Fin 2048) :
    kL1 x0 x1 (ix3 b o n) = Cert.Routing.l1K (xOf x0 b) (wOf x1) o n := by
  unfold kL1 Cert.Routing.l1K Cert.Routing.aK Cert.Routing.qK
  rw [agree_apply]
  simp only [qOfV_apply, castV_apply, kV0_apply, kXb_apply]

theorem kC1_apply (b : Fin 8) (o : Fin 64) (n : Fin 2048) :
    softmaxO (kL1 x0 x1) (ix3 b o n) = Cert.Routing.c1K (xOf x0 b) (wOf x1) n o := by
  unfold Cert.Routing.c1K
  rw [softmaxO_apply]
  simp only [kL1_apply]

theorem kV1_apply (b : Fin 8) (o : Fin 64) (d : Fin 32) :
    kV1 x0 x1 (ix3 b o d) = Cert.Routing.v1K (xOf x0 b) (wOf x1) o d := by
  unfold kV1 Cert.Routing.v1K Cert.Routing.sK Cert.Routing.tK
  rw [squashD_apply]
  simp only [sOfT_apply, tOfC_apply, kC1_apply, kXb_apply]

theorem kL2_apply (b : Fin 8) (o : Fin 64) (n : Fin 2048) :
    kL2 x0 x1 (ix3 b o n) = Cert.Routing.l2K (xOf x0 b) (wOf x1) o n := by
  unfold kL2 Cert.Routing.l2K Cert.Routing.aK Cert.Routing.qK
  rw [addf_at, agree_apply]
  simp only [kL1_apply, qOfV_apply, castV_apply, kV1_apply, kXb_apply]

theorem kC2_apply (b : Fin 8) (o : Fin 64) (n : Fin 2048) :
    softmaxO (kL2 x0 x1) (ix3 b o n) = Cert.Routing.c2K (xOf x0 b) (wOf x1) n o := by
  unfold Cert.Routing.c2K
  rw [softmaxO_apply]
  simp only [kL2_apply]

theorem kOut_apply (b : Fin 8) (o : Fin 64) (d : Fin 32) :
    kOut x0 x1 (ix3 b o d) = Cert.Routing.outK (xOf x0 b) (wOf x1) o d := by
  unfold kOut Cert.Routing.outK Cert.Routing.sK Cert.Routing.tK
  rw [squashD_apply]
  simp only [sOfT_apply, tOfC_apply, kC2_apply, kXb_apply]

end Rounds

/-! ## The stored block -/

/-- The offsets of a whole-block access are all zero. -/
theorem hz3 : (![0, 0, 0] : Fin 3 → Nat) = fun _ => 0 := funext fun a => by fin_cases a <;> rfl

/-- The body loads its two blocks whole and stores one whole block: what it leaves is the third round's poses. -/
theorem out0_2_eq (x0 : Vec Ideal S8x16x2048 .f32) (x1 : Vec Ideal S64x16x32 .f32) :
    out0_2 (F := Ideal) x0 x1 = kOut x0 x1 := by
  unfold out0_2
  rw [View.canon_unit_zero hz3]
  simp only [View.ld_unit_zero (S := S8x16x2048) hz3, View.ld_unit_zero (S := S64x16x32) hz3]
  rw [pay1_eq, pay6_eq, pay5_eq, pay4_eq]
  rfl

/-- THE STORED BLOCK AT AN INDEX: the factored arrangement of three-round routing for batch element `b`, at output
    capsule `o` and output coordinate `d`. -/
theorem out0_2_apply (x0 : Vec Ideal S8x16x2048 .f32) (x1 : Vec Ideal S64x16x32 .f32) (b : Fin 8) (o : Fin 64) (d : Fin 32) :
    out0_2 (F := Ideal) x0 x1 (ix3 b o d)
      = Cert.Routing.outK (fun n i => x0 (ix3 b i n)) (fun o' d' i => x1 (ix3 o' i d')) o d := by
  rw [out0_2_eq]
  exact kOut_apply x0 x1 b o d

end Cert.KernelIdeal.KRead

end
-- ==== Proof.KernelArray.lean ====
/-
  From the kernel's blocks to its whole result array, and the finiteness of its inputs.

  The kernel's grid has four points. Point `t` reads batches `8t … 8t + 7` of the first argument (laid out with its
  last two axes exchanged) and the whole second argument (its unit axis dropped, its last two axes exchanged), and
  writes batches `8t … 8t + 7` of the result. Given what the body computes on its two loaded blocks — at `(b, o, d)`
  the routing of batch `b` of the first block under the second block, a hypothesis here — the four written blocks
  are the four restrictions of ONE function `result` of the two argument arrays: batch row `r` of the result is the
  routing of batch row `r` of the first argument under the second argument. The blocks tile the result array (row `r`
  lies in block `r / 8`), so after the run the array is `result`, and the arguments are unchanged.

  Last, the precondition — every entry of both arguments has absolute value below +∞ — read back entry by entry:
  every entry of both arguments is a real number.
-/
import proofs.«122644_j6313601925542_2_alg».proof.Defs
import proofs.«122644_j6313601925542_2_alg».proof.Proof.Gen.KernelIdeal.Value
import proofs.«122644_j6313601925542_2_alg».proof.Proof.Gen.Pre_finite_inputs
import proofs.«122644_j6313601925542_2_alg».proof.Proof.Routing
import Idealize.ShloMosaic.Lib.ValueIdx
import Idealize.ShloMosaic.Lib.Pipeline.Value
import Idealize.ShloMosaic.Lib.ValueLayout
import Idealize.ShloMosaic.Lib.ReduceAll
import Idealize.ShloMosaic.Lib.IdealHost
import Idealize.ShloMosaic.Lib.StableHlo.Run

noncomputable section

namespace Cert.KernelIdeal.Arr

open Idealize.ShloMosaic Idealize.ShloMosaic.TcCoe Idealize.SL.Sem Idealize.ShloMosaic.ValueIdx Cert.KernelIdeal Cert.KernelIdeal.Gen
open Idealize.ShloMosaic.Pipeline (Dat)

/-! ## The whole result array -/

/-- The whole result array as one function of the two argument arrays: batch row `r` of the result is the routing of
    batch row `r` of the first argument under the (shared) second argument. -/
def result (A0 : S32x2048x16.Idx → EReal) (A1 : S1x64x32x16.Idx → EReal) : S32x64x32.Idx → EReal :=
  fun j => Cert.Routing.outK (fun n i => A0 (ix3 (j 0) n i)) (fun o' d' i => A1 (ix4 (0 : Fin 1) o' d' i)) (j 1) (j 2)

section Blocks

variable (m : (ℓ : Loc nD τ sig) → Buf (Elt Ideal) ℓ) (ρ : Dev nD → PrngReg)

/-! ## The arrays the region finds: the arguments re-laid by the host operations -/

/-- The first window's array is the first argument with its last two axes exchanged. -/
theorem V_v0_apply (c : Dev nD) (b : Fin 32) (i : Fin 16) (n : Fin 2048) :
    (V m c main_v0 : S32x16x2048.Idx → EReal) (ix3 b i n)
      = (m ((c : Thread nD τ).loc main_arg0) : S32x2048x16.Idx → EReal) (ix3 b n i) := by
  have e : (V m c main_v0 : S32x16x2048.Idx → EReal)
      = transpose S32x16x2048 [0, 2, 1] (m ((c : Thread nD τ).loc main_arg0) : S32x2048x16.Idx → EReal)
          transposes_S32x2048x16_S32x16x2048_0_2_1 := by
    dsimp only [Gen.V, Gen.hostOps0]; after_results
  rw [e]
  exact transpose_ix3_021_apply _ _ b i n

/-- The second window's array is the second argument with its unit axis dropped and its last two axes exchanged. -/
theorem V_v2_apply (c : Dev nD) (o : Fin 64) (i : Fin 16) (d : Fin 32) :
    (V m c main_v2 : S64x16x32.Idx → EReal) (ix3 o i d)
      = (m ((c : Thread nD τ).loc main_arg1) : S1x64x32x16.Idx → EReal) (ix4 (0 : Fin 1) o d i) := by
  have e : (V m c main_v2 : S64x16x32.Idx → EReal)
      = transpose S64x16x32 [0, 2, 1]
          (shapeCast S64x32x16 (m ((c : Thread nD τ).loc main_arg1) : S1x64x32x16.Idx → EReal) shapeCasts_S1x64x32x16_S64x32x16)
          transposes_S64x32x16_S64x16x32_0_2_1 := by
    dsimp only [Gen.V, Gen.hostOps0]; after_results; rfl
  rw [e]
  exact (transpose_ix3_021_apply _ _ o i d).trans (shapeCast_1abc_abc_apply _ _ o d i)

/-! ## The windows' block indices at a grid point -/

/-- The printed index maps, decided over the four grid points: the first input window and the output window are at
    block `t` of the batch axis and block 0 of the others; the second input window is always at block 0. -/
theorem idx_at : ∀ t : Fin cfg0.N,
    (win0_0.index t (0 : Fin 3) = t.val ∧ win0_0.index t (1 : Fin 3) = 0 ∧ win0_0.index t (2 : Fin 3) = 0)
    ∧ (win0_1.index t (0 : Fin 3) = 0 ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0) :=
  (by decide +kernel : ∀ t : Fin grid0.N, _)

theorem lt_four (t : Fin cfg0.N) : t.val < 4 := by
  have hN : cfg0.N = 4 := N_0
  have := t.isLt
  omega

/-! ## The input blocks at a grid point, read off the arguments -/

/-- The first input window's block at point `t` is batches `8t … 8t + 7` of the first argument, axes exchanged. -/
theorem iblk0_apply (c : Dev nD) (t : Fin cfg0.N) (b : Fin 8) (i : Fin 16) (n : Fin 2048) (B : Fin 32)
    (hB : B.val = 8 * t.val + b.val) :
    (iblk m c 0 t : Vec Ideal S8x16x2048 .f32) (ix3 b i n)
      = (m ((c : Thread nD τ).loc main_arg0) : S32x2048x16.Idx → EReal) (ix3 B n i) := by
  obtain ⟨⟨e0, e1, e2⟩, -, -⟩ := idx_at t
  unfold iblk
  rw [View.read_apply]
  show (V m c main_v0 : S32x16x2048.Idx → EReal) _ = _
  refine Eq.trans (congrArg (V m c main_v0 : S32x16x2048.Idx → EReal) ?_) (V_v0_apply m c B i n)
  funext a
  apply Fin.ext
  match a with
  | ⟨0, _⟩ => show win0_0.index t (0 : Fin 3) * 8 + 1 * b.val = B.val; rw [e0, hB]; omega
  | ⟨1, _⟩ => show win0_0.index t (1 : Fin 3) * 16 + 1 * i.val = i.val; rw [e1]; omega
  | ⟨2, _⟩ => show win0_0.index t (2 : Fin 3) * 2048 + 1 * n.val = n.val; rw [e2]; omega

/-- The second input window's block at every point is the whole second argument, re-laid. -/
theorem iblk1_apply (c : Dev nD) (t : Fin cfg0.N) (o : Fin 64) (i : Fin 16) (d : Fin 32) :
    (iblk m c 1 t : Vec Ideal S64x16x32 .f32) (ix3 o i d)
      = (m ((c : Thread nD τ).loc main_arg1) : S1x64x32x16.Idx → EReal) (ix4 (0 : Fin 1) o d i) := by
  obtain ⟨-, ⟨e0, e1, e2⟩, -⟩ := idx_at t
  unfold iblk
  rw [View.read_apply]
  show (V m c main_v2 : S64x16x32.Idx → EReal) _ = _
  refine Eq.trans (congrArg (V m c main_v2 : S64x16x32.Idx → EReal) ?_) (V_v2_apply m c o i d)
  funext a
  apply Fin.ext
  match a with
  | ⟨0, _⟩ => show win0_1.index t (0 : Fin 3) * 64 + 1 * o.val = o.val; rw [e0]; omega
  | ⟨1, _⟩ => show win0_1.index t (1 : Fin 3) * 16 + 1 * i.val = i.val; rw [e1]; omega
  | ⟨2, _⟩ => show win0_1.index t (2 : Fin 3) * 32 + 1 * d.val = d.val; rw [e2]; omega

/-! ## The output blocks tile the result array -/

/-- An index of the result array is in point `t`'s block iff each coordinate is in the block's range on its axis. -/
theorem mem_blk (t : Fin cfg0.N) (i : S32x64x32.Idx) :
    i ∈ ((cfg0.win 2).blk t).view.set
      ↔ ∀ a : Fin 3, win0_2.index t a * S8x64x32.size a ≤ (i a).val ∧ (i a).val < win0_2.index t a * S8x64x32.size a + S8x64x32.size a := by
  show i ∈ ((View.whole main_v3).slice (win0_2.rect t)).set ↔ _
  rw [View.set_slice_whole, Rect.mem_set_unit]
  exact Iff.rfl

/-- Every index of the result array is in the block of the point its batch row belongs to: row `r` is in block `r / 8`. -/
theorem cover (i : S32x64x32.Idx) :
    ∃ t : Fin cfg0.N, (cfg0.win 2).flush t = true ∧ i ∈ ((cfg0.win 2).blk t).view.set := by
  have hN : cfg0.N = 4 := N_0
  have hi0 : (i 0).val < 32 := (i 0).isLt
  have hi1 : (i 1).val < 64 := (i 1).isLt
  have hi2 : (i 2).val < 32 := (i 2).isLt
  let t : Fin cfg0.N := ⟨(i 0).val / 8, by omega⟩
  have htv : t.val = (i 0).val / 8 := rfl
  obtain ⟨-, -, ⟨e0, e1, e2⟩⟩ := idx_at t
  refine ⟨t, flush0_2 t, ?_⟩
  rw [mem_blk]
  intro a
  match a with
  | ⟨0, _⟩ => show win0_2.index t (0 : Fin 3) * 8 ≤ (i 0).val ∧ (i 0).val < win0_2.index t (0 : Fin 3) * 8 + 8; rw [e0, htv]; omega
  | ⟨1, _⟩ => show win0_2.index t (1 : Fin 3) * 64 ≤ (i 1).val ∧ (i 1).val < win0_2.index t (1 : Fin 3) * 64 + 64; rw [e1]; omega
  | ⟨2, _⟩ => show win0_2.index t (2 : Fin 3) * 32 ≤ (i 2).val ∧ (i 2).val < win0_2.index t (2 : Fin 3) * 32 + 32; rw [e2]; omega

/-- What the kernel's body writes, index by index, as the routing of its two loaded blocks: a hypothesis of this module. -/
abbrev BodyWrites : Prop :=
  ∀ (x0 : Vec Ideal S8x16x2048 .f32) (x1 : Vec Ideal S64x16x32 .f32) (b : Fin 8) (o : Fin 64) (d : Fin 32),
    out0_2 (F := Ideal) x0 x1 (ix3 b o d)
      = Cert.Routing.outK (fun n i => x0 (ix3 b i n)) (fun o' d' i => x1 (ix3 o' i d')) o d

/-- What point `t` computes at `(b, o, d)` of its block is the result array at batch row `8t + b`. -/
theorem out_at (hout : BodyWrites) (c : Dev nD) (t : Fin cfg0.N) (b : Fin 8) (o : Fin 64) (d : Fin 32) (B : Fin 32)
    (hB : B.val = 8 * t.val + b.val) :
    out0_2 (F := Ideal) (iblk m c 0 t) (iblk m c 1 t) (ix3 b o d)
      = result (m ((c : Thread nD τ).loc main_arg0)) (m ((c : Thread nD τ).loc main_arg1)) (ix3 B o d) := by
  refine (hout (iblk m c 0 t) (iblk m c 1 t) b o d).trans ?_
  have h0 : (fun (n : Fin 2048) (i : Fin 16) => (iblk m c 0 t : Vec Ideal S8x16x2048 .f32) (ix3 b i n))
      = fun n i => (m ((c : Thread nD τ).loc main_arg0) : S32x2048x16.Idx → EReal) (ix3 B n i) :=
    funext fun n => funext fun i => iblk0_apply m c t b i n B hB
  have h1 : (fun (o' : Fin 64) (d' : Fin 32) (i : Fin 16) => (iblk m c 1 t : Vec Ideal S64x16x32 .f32) (ix3 o' i d'))
      = fun o' d' i => (m ((c : Thread nD τ).loc main_arg1) : S1x64x32x16.Idx → EReal) (ix4 (0 : Fin 1) o' d' i) :=
    funext fun o' => funext fun d' => funext fun i => iblk1_apply m c t o' i d'
  exact congrArg₂ (fun X W => Cert.Routing.outK X W o d) h0 h1

/-- WHAT POINT `t` WRITES BACK is block `t` of the result array. -/
theorem flushed_eq (hout : BodyWrites) (c : Dev nD) (t : Fin cfg0.N) :
    (dats m 0 c).flushed 2 t
      = ((cfg0.win 2).blk t).view.read (Elt Ideal)
          (result (m ((c : Thread nD τ).loc main_arg0)) (m ((c : Thread nD τ).loc main_arg1))) := by
  rw [Value.flushed2]
  have ht := lt_four t
  obtain ⟨-, -, ⟨e0, e1, e2⟩⟩ := idx_at t
  funext y
  have hy0 : (y 0).val < 8 := (y 0).isLt
  have hy1 : (y 1).val < 64 := (y 1).isLt
  have hy2 : (y 2).val < 32 := (y 2).isLt
  have hx : (cfg0.win 2).xinj (grid0.coords t) y
      = (ix3 (⟨(y 0).val, hy0⟩ : Fin 8) (⟨(y 1).val, hy1⟩ : Fin 64) (⟨(y 2).val, hy2⟩ : Fin 32) : S8x64x32.Idx) :=
    funext fun a => Fin.ext (by match a with | ⟨0, _⟩ => rfl | ⟨1, _⟩ => rfl | ⟨2, _⟩ => rfl)
  have he : ((cfg0.win 2).blk t).view.emb y
      = (ix3 (⟨8 * t.val + (y 0).val, by omega⟩ : Fin 32) (⟨(y 1).val, hy1⟩ : Fin 64) (⟨(y 2).val, hy2⟩ : Fin 32) : S32x64x32.Idx) :=
    funext fun a => Fin.ext (by
      match a with
      | ⟨0, _⟩ => show win0_2.index t (0 : Fin 3) * 8 + 1 * (y 0).val = 8 * t.val + (y 0).val; rw [e0]; omega
      | ⟨1, _⟩ => show win0_2.index t (1 : Fin 3) * 64 + 1 * (y 1).val = (y 1).val; rw [e1]; omega
      | ⟨2, _⟩ => show win0_2.index t (2 : Fin 3) * 32 + 1 * (y 2).val = (y 2).val; rw [e2]; omega)
  show out0_2 (F := Ideal) (iblk m c 0 t) (iblk m c 1 t) ((cfg0.win 2).xinj (grid0.coords t) y)
      = result (m ((c : Thread nD τ).loc main_arg0)) (m ((c : Thread nD τ).loc main_arg1)) (((cfg0.win 2).blk t).view.emb y)
  refine (congrArg (out0_2 (F := Ideal) (iblk m c 0 t) (iblk m c 1 t)) hx).trans ?_
  refine Eq.trans ?_ (congrArg (result (m ((c : Thread nD τ).loc main_arg0)) (m ((c : Thread nD τ).loc main_arg1))) he).symm
  exact out_at m hout c t _ _ _ _ rfl

/-- THE RESULT ARRAY after the run is `result` of the two arguments: the four points' blocks tile it. -/
theorem final (hout : BodyWrites) (c : Dev nD) :
    (dats m 0 c).arrAt 2 cfg0.N
      = result (m ((c : Thread nD τ).loc main_arg0)) (m ((c : Thread nD τ).loc main_arg1)) :=
  (dats m 0 c).arrAt_eq_of_cover 2
    (result (m ((c : Thread nD τ).loc main_arg0)) (m ((c : Thread nD τ).loc main_arg1)))
    (fun t _ => flushed_eq m hout c t) cover

end Blocks

/-! ## The run, read -/

/-- The kernel's run: the result array at `result` of the two arguments, the arguments unchanged. -/
theorem run [Cert.KernelIdeal.Facts]
    (hout : ∀ (x0 : Vec Ideal S8x16x2048 .f32) (x1 : Vec Ideal S64x16x32 .f32) (b : Fin 8) (o : Fin 64) (d : Fin 32),
        out0_2 (F := Ideal) x0 x1 (ix3 b o d) = Cert.Routing.outK (fun n i => x0 (ix3 b i n)) (fun o' d' i => x1 (ix3 o' i d')) o d)
    (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v3) = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m hout c), (h c).2⟩)
    (Cert.KernelIdeal.Value.run_blocks m ρ)

/-! ## The inputs are finite -/

/-- An extended real whose absolute value is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- An entry whose absolute value compares below the word of +∞ is a real number. -/
theorem entry_real {S : Shape} {A : FVec Ideal S .f32}
    {hb : Cert.Pre_finite_inputs.S_.BroadcastsInDim S (![] : Fin 0 → Fin S.rank)} (i : S.Idx)
    (h : cmpf .olt (Host.absf A) (broadcastInDim S ![] hb (constant (F := Ideal) Cert.Pre_finite_inputs.S_ .f32 0x7F800000#32)) i = 1#1) :
    ∃ r : ℝ, A i = (r : EReal) := by
  refine real_of_abs_lt_top (A i) ?_
  rw [cmpf_apply, broadcastInDim_scalar_apply, constant_apply] at h
  have htop : Ideal.ofBits .f32 0x7F800000#32 = (⊤ : EReal) := by simp [Ideal.ofBits, Ideal.ieee]
  rw [htop] at h
  simp only [Ideal.cmpf_def, Ideal.cmp] at h
  have hd : decide (Host.absf A i < ⊤) = true := by
    cases hdec : decide (Host.absf A i < ⊤) with
    | true => rfl
    | false => rw [hdec] at h; exact absurd h (by decide)
  exact of_decide_eq_true hd

/-- Under the precondition every entry of both arguments is a real number. -/
theorem pre_real [Cert.KernelIdeal.Facts] [Cert.Pre_finite_inputs.Facts] (m : (ℓ : Loc nD τ sig) → Buf (Elt Ideal) ℓ)
    (h : Cert.Pre_KernelIdeal m) (c : Dev nD) :
    (∀ j, ∃ r : ℝ, m ((c : Thread nD τ).loc main_arg0) j = (r : EReal))
      ∧ (∀ j, ∃ r : ℝ, m ((c : Thread nD τ).loc main_arg1) j = (r : EReal)) := by
  haveI : Subsingleton Cert.Pre_finite_inputs.S_.Idx := ⟨fun a b => funext fun d => d.elim0⟩
  have h0 := congrFun (h c) ix0
  dsimp only [Cert.Pre_finite_inputs.fn] at h0
  obtain ⟨ha, hb⟩ := IntOp.andi_eq_one.1 h0
  exact ⟨fun j => entry_real j (Host.reduce_andi_all _ _ _ _ ix0 ha j),
    fun j => entry_real j (Host.reduce_andi_all _ _ _ _ ix0 hb j)⟩

end Cert.KernelIdeal.Arr
end
-- ==== Proof.RefRun.lean ====
/-
  The reference's run read back: every weakly fair execution of the reference ends with its result array at the
  composition of its 143 host operations applied to the two argument arrays, and the arguments unchanged. The
  composition is named stage by stage (`val_main_v103` and the stages below it), so that a stage read several times —
  the predictions are read five times — is written once.
-/
import proofs.«122644_j6313601925542_2_alg».proof.Proof.RefRunP
import proofs.«122644_j6313601925542_2_alg».proof.Proof.RefReadP

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 57200000 in
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v103)
          = Cert.ReferenceIdeal.ReadP.val_main_v103 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v103).trans (by after_results_simp <;> rfl),
      (h c main_arg0).trans (by after_results_simp <;> rfl),
      (h c main_arg1).trans (by after_results_simp <;> rfl)⟩)
    (Cert.ReferenceIdeal.ValueP.run_after m ρ)

end Cert.ReferenceIdeal.RefRun

end
-- ==== Proof.RefRead.lean ====
/-
  The reference program's result, read one element at a time.

  The reference computes three rounds of routing between capsules: it squashes the 2048 input capsules of a batch
  element, forms every prediction `u n o d = Σ_i xs n i · w o d i`, and then, three times, takes the coupling as the
  softmax of the logits over the 64 output capsules, sums the coupled predictions over the input capsules, squashes
  the sum, and (in the first two rounds) adds the agreement `Σ_d u n o d · v o d` to the logits.  This module reads
  each of those stages at an index in terms of the stages before it, and concludes that the element `(b, o, d)` of
  the result is the direct arrangement `Cert.Routing.outR` of batch element `b`'s inputs and the shared weight,
  at `(o, d)`.

  The length of a vector is the root of `0 + Σ x·x`, and the zero word read as a real is `0`; a maximum over the
  64 logits that starts from the word of -∞ is the fold of `max` from that word.  No other constant is evaluated:
  1/2, ε and -∞ stay the binary32 words the program carries.
-/
import proofs.«122644_j6313601925542_2_alg».proof.Proof.RefReadP
import proofs.«122644_j6313601925542_2_alg».proof.Proof.Routing
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.RefValue

open Idealize.ShloMosaic Idealize.ShloMosaic.ValueIdx Cert.ReferenceIdeal Cert.ReferenceIdeal.Gen Cert.ReferenceIdeal.ReadP

/-! ## The squashed inputs -/

/-- The length of an input capsule: the root of its sum of squares. -/
theorem nrm_apply (x0 : (⟨S32x2048x16, .f32⟩ : BufTy).Contents (Elt Ideal)) (b : Fin 32) (n : Fin 2048) :
    val_main_v0 (F := Ideal) x0 (ix3 b n (0 : Fin 1))
      = Ideal.sqrt (Cert.Routing.ssq fun i : Fin 16 => x0 (ix3 b n i)) := by
  rw [val_main_v0_apply, val_main_call0_v2_apply,
    show idx_main_call0_v2 (ix3 b n (0 : Fin 1)) = ix2 b n from
      funext fun a => Fin.ext (by match a with | ⟨0, _⟩ => rfl | ⟨1, _⟩ => rfl),
    val_main_call0_v1_apply, val_main_call0_cst_apply]
  simp only [Ideal.hostUnary_sqrt_def, Ideal.ofBits_def, Ideal.ofBits_zero_f32, zero_add]
  unfold Cert.Routing.ssq
  refine congrArg Ideal.sqrt (Finset.sum_congr rfl fun k _ => ?_)
  rw [val_main_call0_v0_apply,
    show idx_main_call0_v1 (ix2 b n) k = ix3 b n k from
      funext fun a => Fin.ext (by match a with | ⟨0, _⟩ => rfl | ⟨1, _⟩ => rfl | ⟨2, _⟩ => rfl)]
  rfl

/-- A squashed input capsule, read at a coordinate. -/
theorem xs_apply (x0 : (⟨S32x2048x16, .f32⟩ : BufTy).Contents (Elt Ideal)) (b : Fin 32) (n : Fin 2048) (i : Fin 16) :
    val_main_v10 (F := Ideal) x0 (ix3 b n i) = Cert.Routing.squash' (fun i' : Fin 16 => x0 (ix3 b n i')) i := by
  have e2 : idx_main_v2 (ix3 b n i) = ix3 b n (0 : Fin 1) := funext fun a => Fin.ext (by match a with | ⟨0, _⟩ => rfl | ⟨1, _⟩ => rfl | ⟨2, _⟩ => rfl)
  have e9 : idx_main_v9 (ix3 b n i) = ix3 b n (0 : Fin 1) := funext fun a => Fin.ext (by match a with | ⟨0, _⟩ => rfl | ⟨1, _⟩ => rfl | ⟨2, _⟩ => rfl)
  rw [val_main_v10_apply, val_main_v3_apply, val_main_v2_apply, e2, val_main_v9_apply, e9, val_main_v8_apply,
    val_main_v5_apply, val_main_v7_apply, val_main_v4_apply, val_main_v6_apply, val_main_cst_apply,
    val_main_cst_0_apply, val_main_v1_apply, nrm_apply]
  simp only [Ideal.hostDivf_def, Ideal.mulf_def, Ideal.addf_def, Ideal.ofBits_def]
  rfl

/-! ## The predictions -/

/-- A prediction is the squashed input contracted with the weight over the 16 input coordinates. -/
theorem u_apply (x0 : (⟨S32x2048x16, .f32⟩ : BufTy).Contents (Elt Ideal)) (x1 : (⟨S1x64x32x16, .f32⟩ : BufTy).Contents (Elt Ideal)) (b : Fin 32) (n : Fin 2048) (o : Fin 64) (d : Fin 32) :
    val_main_v12 (F := Ideal) x0 x1 (ix4 b n o d)
      = ∑ i : Fin 16, val_main_v10 (F := Ideal) x0 (ix3 b n i) * x1 (ix4 (0 : Fin 1) o d i) := by
  rw [val_main_v12_apply]
  refine Finset.sum_congr rfl fun k _ => ?_
  have ho := o.isLt
  have hd := d.isLt
  have hk := k.isLt
  rw [val_main_v11_apply,
    show lidx_main_v12 (ix4 b n o d) k = ix3 b n k from funext fun a => Fin.ext (by match a with | ⟨0, _⟩ => rfl | ⟨1, _⟩ => rfl | ⟨2, _⟩ => rfl),
    show ridx_main_v12 (ix4 b n o d) k = ix3 o d k from funext fun a => Fin.ext (by match a with | ⟨0, _⟩ => rfl | ⟨1, _⟩ => rfl | ⟨2, _⟩ => rfl),
    show idx_main_v11 (ix3 o d k) = ix4 (0 : Fin 1) o d k from
      funext fun a => Fin.ext (by
        match a with
        | ⟨0, _⟩ => rfl
        | ⟨1, _⟩ => show ((o.val * 32 + d.val) * 16 + k.val) / 512 % 64 = o.val; omega
        | ⟨2, _⟩ => show ((o.val * 32 + d.val) * 16 + k.val) / 16 % 32 = d.val; omega
        | ⟨3, _⟩ => show ((o.val * 32 + d.val) * 16 + k.val) % 16 = k.val; omega)]

/-! ## A maximum over the 64 output capsules -/

/-- The index `(b, n)` with the coordinate `k` of the third axis put back is `(b, n, k)`. -/
private theorem lift_ix3 (h : S32x2048x64.Reduces [2] S32x2048) (b : Fin 32) (n : Fin 2048)
    (k : Fin (S32x2048x64.size 2)) : h.lift (ix2 b n) k = ix3 b n (⟨k.val, k.isLt⟩ : Fin 64) := by
  funext c; apply Fin.ext
  fin_cases c <;> rfl

/-- A reduction by maximum over the third axis, at `(b, n)`, is the fold of `max` over the row `(b, n, ·)` from the
    initial value. -/
theorem maxReduce_apply (L : FVec Ideal S32x2048x64 .f32) (c : FVec Ideal S_ .f32) (b : Fin 32) (n : Fin 2048) :
    Host.reduce (FloatOps.maximumf (F := Ideal) (φ := .f32)) L c reducesTo_S32x2048x64_S32x2048_d2 h_S_ (ix2 b n)
      = Finset.univ.fold max (c (Shape.Idx.first h_S_)) (fun o : Fin 64 => L (ix3 b n o)) := by
  have h : S32x2048x64.Reduces [2] S32x2048 := by decide
  rw [Host.reduce_eq_fold_single (FloatOps.maximumf (F := Ideal) (φ := .f32)) L c reducesTo_S32x2048x64_S32x2048_d2 h h_S_]
  have hf : (L ∘ h.lift (ix2 b n)) = fun o : Fin 64 => L (ix3 b n o) :=
    funext fun k => congrArg L (lift_ix3 h b n k)
  exact congrArg (fun f => Finset.fold max (c (Shape.Idx.first h_S_)) f (Finset.univ : Finset (Fin 64))) hf

/-! ## The first round: the coupling of zero logits -/

/-- The logits start at zero. -/
theorem l0_apply (b : Fin 32) (n : Fin 2048) (o : Fin 64) : val_main_v13 (F := Ideal) (ix3 b n o) = (0 : EReal) := by
  rw [val_main_v13_apply, val_main_cst_1_apply]
  exact Ideal.ofBits_zero_f32

/-- The maximum the first softmax subtracts. -/
theorem m0_apply (b : Fin 32) (n : Fin 2048) (o : Fin 64) :
    val_main_v18 (F := Ideal) (ix3 b n o) = Cert.Routing.mx (fun _ : Fin 64 => (0 : EReal)) := by
  rw [val_main_v18_apply, show idx_main_v18 (ix3 b n o) = ix3 b n (0 : Fin 1) from funext fun a => Fin.ext (by match a with | ⟨0, _⟩ => rfl | ⟨1, _⟩ => rfl | ⟨2, _⟩ => rfl),
    val_main_v17_apply, show idx_main_v17 (ix3 b n (0 : Fin 1)) = ix2 b n from funext fun a => Fin.ext (by match a with | ⟨0, _⟩ => rfl | ⟨1, _⟩ => rfl),
    val_main_v16_apply, val_main_v15_apply, val_main_cst_3_apply]
  unfold val_main_v14
  rw [maxReduce_apply, val_main_cst_2_apply,
    show (fun o : Fin 64 => val_main_v13 (F := Ideal) (ix3 b n o)) = fun _ => (0 : EReal) from
      funext fun o => l0_apply b n o]
  rfl

/-- The exponential of the shifted zero logits. -/
theorem e0_apply (b : Fin 32) (n : Fin 2048) (o : Fin 64) :
    val_main_v20 (F := Ideal) (ix3 b n o) = Ideal.exp ((0 : EReal) - Cert.Routing.mx (fun _ : Fin 64 => (0 : EReal))) := by
  rw [val_main_v20_apply, val_main_v19_apply, m0_apply, l0_apply]
  rfl

/-- The first round's coupling is the softmax of the zero logits. -/
theorem c0_apply (b : Fin 32) (n : Fin 2048) (o : Fin 64) :
    val_main_v24 (F := Ideal) (ix3 b n o) = Cert.Routing.c0 o := by
  rw [val_main_v24_apply, val_main_v23_apply, show idx_main_v23 (ix3 b n o) = ix3 b n (0 : Fin 1) from funext fun a => Fin.ext (by match a with | ⟨0, _⟩ => rfl | ⟨1, _⟩ => rfl | ⟨2, _⟩ => rfl),
    val_main_v22_apply, show idx_main_v22 (ix3 b n (0 : Fin 1)) = ix2 b n from funext fun a => Fin.ext (by match a with | ⟨0, _⟩ => rfl | ⟨1, _⟩ => rfl),
    val_main_v21_apply, val_main_cst_4_apply, e0_apply]
  simp only [Ideal.hostDivf_def, Ideal.ofBits_def, Ideal.ofBits_zero_f32, zero_add]
  unfold Cert.Routing.c0 Cert.Routing.sm
  refine congrArg (Ideal.div _) (Finset.sum_congr rfl fun k _ => ?_)
  rw [show idx_main_v21 (ix2 b n) k = ix3 b n k from funext fun a => Fin.ext (by match a with | ⟨0, _⟩ => rfl | ⟨1, _⟩ => rfl | ⟨2, _⟩ => rfl), e0_apply]

/-! ## The first round: weighted sum, squashing, agreement -/

/-- The first round's weighted sum of the predictions over the input capsules. -/
theorem s0_apply (x0 : (⟨S32x2048x16, .f32⟩ : BufTy).Contents (Elt Ideal)) (x1 : (⟨S1x64x32x16, .f32⟩ : BufTy).Contents (Elt Ideal)) (b : Fin 32) (o : Fin 64) (d : Fin 32) :
    val_main_v28 (F := Ideal) x0 x1 (ix3 b o d)
      = ∑ n : Fin 2048, val_main_v24 (F := Ideal) (ix3 b n o) * val_main_v12 (F := Ideal) x0 x1 (ix4 b n o d) := by
  rw [val_main_v28_apply, val_main_cst_5_apply]
  simp only [Ideal.ofBits_def, Ideal.ofBits_zero_f32, zero_add]
  refine Finset.sum_congr rfl fun k _ => ?_
  rw [show idx_main_v28 (ix3 b o d) k = ix4 b k o d from funext fun a => Fin.ext (by match a with | ⟨0, _⟩ => rfl | ⟨1, _⟩ => rfl | ⟨2, _⟩ => rfl | ⟨3, _⟩ => rfl),
    val_main_v27_apply, val_main_v26_apply, show idx_main_v26 (ix4 b k o d) = ix4 b k o (0 : Fin 1) from funext fun a => Fin.ext (by match a with | ⟨0, _⟩ => rfl | ⟨1, _⟩ => rfl | ⟨2, _⟩ => rfl | ⟨3, _⟩ => rfl),
    val_main_v25_apply, show idx_main_v25 (ix4 b k o (0 : Fin 1)) = ix3 b k o from funext fun a => Fin.ext (by match a with | ⟨0, _⟩ => rfl | ⟨1, _⟩ => rfl | ⟨2, _⟩ => rfl)]
  rfl

/-- The length of the first round's weighted sum. -/
theorem n0_apply (x0 : (⟨S32x2048x16, .f32⟩ : BufTy).Contents (Elt Ideal)) (x1 : (⟨S1x64x32x16, .f32⟩ : BufTy).Contents (Elt Ideal)) (b : Fin 32) (o : Fin 64) :
    val_main_v30 (F := Ideal) x0 x1 (ix4 b (0 : Fin 1) o (0 : Fin 1))
      = Ideal.sqrt (Cert.Routing.ssq fun d : Fin 32 => val_main_v28 (F := Ideal) x0 x1 (ix3 b o d)) := by
  rw [val_main_v30_apply, val_main_call1_v2_apply,
    show idx_main_call1_v2 (ix4 b (0 : Fin 1) o (0 : Fin 1)) = ix3 b (0 : Fin 1) o from funext fun a => Fin.ext (by match a with | ⟨0, _⟩ => rfl | ⟨1, _⟩ => rfl | ⟨2, _⟩ => rfl),
    val_main_call1_v1_apply, val_main_call1_cst_apply]
  simp only [Ideal.hostUnary_sqrt_def, Ideal.ofBits_def, Ideal.ofBits_zero_f32, zero_add]
  unfold Cert.Routing.ssq
  refine congrArg Ideal.sqrt (Finset.sum_congr rfl fun k _ => ?_)
  rw [val_main_call1_v0_apply, show idx_main_call1_v1 (ix3 b (0 : Fin 1) o) k = ix4 b (0 : Fin 1) o k from funext fun a => Fin.ext (by match a with | ⟨0, _⟩ => rfl | ⟨1, _⟩ => rfl | ⟨2, _⟩ => rfl | ⟨3, _⟩ => rfl),
    val_main_v29_apply, show idx_main_v29 (ix4 b (0 : Fin 1) o k) = ix3 b o k from funext fun a => Fin.ext (by match a with | ⟨0, _⟩ => rfl | ⟨1, _⟩ => rfl | ⟨2, _⟩ => rfl)]
  rfl

/-- The first round's output pose: the weighted sum, squashed. -/
theorem v0_apply (x0 : (⟨S32x2048x16, .f32⟩ : BufTy).Contents (Elt Ideal)) (x1 : (⟨S1x64x32x16, .f32⟩ : BufTy).Contents (Elt Ideal)) (b : Fin 32) (o : Fin 64) (d : Fin 32) :
    val_main_v40 (F := Ideal) x0 x1 (ix4 b (0 : Fin 1) o d)
      = Cert.Routing.squash' (fun d' : Fin 32 => val_main_v28 (F := Ideal) x0 x1 (ix3 b o d')) d := by
  have e32 : idx_main_v32 (ix4 b (0 : Fin 1) o d) = ix4 b (0 : Fin 1) o (0 : Fin 1) := funext fun a => Fin.ext (by match a with | ⟨0, _⟩ => rfl | ⟨1, _⟩ => rfl | ⟨2, _⟩ => rfl | ⟨3, _⟩ => rfl)
  have e39 : idx_main_v39 (ix4 b (0 : Fin 1) o d) = ix4 b (0 : Fin 1) o (0 : Fin 1) := funext fun a => Fin.ext (by match a with | ⟨0, _⟩ => rfl | ⟨1, _⟩ => rfl | ⟨2, _⟩ => rfl | ⟨3, _⟩ => rfl)
  have e29 : idx_main_v29 (ix4 b (0 : Fin 1) o d) = ix3 b o d := funext fun a => Fin.ext (by match a with | ⟨0, _⟩ => rfl | ⟨1, _⟩ => rfl | ⟨2, _⟩ => rfl)
  rw [val_main_v40_apply, val_main_v33_apply, val_main_v32_apply, e32, val_main_v39_apply, e39, val_main_v38_apply,
    val_main_v35_apply, val_main_v37_apply, val_main_v34_apply, val_main_v36_apply, val_main_cst_6_apply,
    val_main_cst_7_apply, val_main_v31_apply, n0_apply, val_main_v29_apply, e29]
  simp only [Ideal.hostDivf_def, Ideal.mulf_def, Ideal.addf_def, Ideal.ofBits_def]
  rfl

/-- The first round's agreement of a prediction with the output pose. -/
theorem a0_apply (x0 : (⟨S32x2048x16, .f32⟩ : BufTy).Contents (Elt Ideal)) (x1 : (⟨S1x64x32x16, .f32⟩ : BufTy).Contents (Elt Ideal)) (b : Fin 32) (n : Fin 2048) (o : Fin 64) :
    val_main_v43 (F := Ideal) x0 x1 (ix3 b n o)
      = ∑ d : Fin 32, val_main_v12 (F := Ideal) x0 x1 (ix4 b n o d) * val_main_v40 (F := Ideal) x0 x1 (ix4 b (0 : Fin 1) o d) := by
  rw [val_main_v43_apply, val_main_cst_8_apply]
  simp only [Ideal.ofBits_def, Ideal.ofBits_zero_f32, zero_add]
  refine Finset.sum_congr rfl fun k _ => ?_
  rw [show idx_main_v43 (ix3 b n o) k = ix4 b n o k from funext fun a => Fin.ext (by match a with | ⟨0, _⟩ => rfl | ⟨1, _⟩ => rfl | ⟨2, _⟩ => rfl | ⟨3, _⟩ => rfl),
    val_main_v42_apply, val_main_v41_apply, show idx_main_v41 (ix4 b n o k) = ix4 b (0 : Fin 1) o k from funext fun a => Fin.ext (by match a with | ⟨0, _⟩ => rfl | ⟨1, _⟩ => rfl | ⟨2, _⟩ => rfl | ⟨3, _⟩ => rfl)]
  rfl

/-! ## The logits between the rounds -/

/-- After the first round the logits are the first agreement (added to the zero they start from). -/
theorem l1_apply (x0 : (⟨S32x2048x16, .f32⟩ : BufTy).Contents (Elt Ideal)) (x1 : (⟨S1x64x32x16, .f32⟩ : BufTy).Contents (Elt Ideal)) (b : Fin 32) (n : Fin 2048) (o : Fin 64) :
    val_main_v44 (F := Ideal) x0 x1 (ix3 b n o) = val_main_v43 (F := Ideal) x0 x1 (ix3 b n o) := by
  rw [val_main_v44_apply, l0_apply]
  simp only [Ideal.addf_def, zero_add]

/-- After the second round the logits are the first agreement plus the second. -/
theorem l2_apply (x0 : (⟨S32x2048x16, .f32⟩ : BufTy).Contents (Elt Ideal)) (x1 : (⟨S1x64x32x16, .f32⟩ : BufTy).Contents (Elt Ideal)) (b : Fin 32) (n : Fin 2048) (o : Fin 64) :
    val_main_v75 (F := Ideal) x0 x1 (ix3 b n o)
      = val_main_v44 (F := Ideal) x0 x1 (ix3 b n o) + val_main_v74 (F := Ideal) x0 x1 (ix3 b n o) := by
  rw [val_main_v75_apply]
  rfl

/-! ## The second round: the coupling -/

/-- The maximum the second softmax subtracts. -/
theorem m1_apply (x0 : (⟨S32x2048x16, .f32⟩ : BufTy).Contents (Elt Ideal)) (x1 : (⟨S1x64x32x16, .f32⟩ : BufTy).Contents (Elt Ideal)) (b : Fin 32) (n : Fin 2048) (o : Fin 64) :
    val_main_v49 (F := Ideal) x0 x1 (ix3 b n o)
      = Cert.Routing.mx (fun o' : Fin 64 => val_main_v44 (F := Ideal) x0 x1 (ix3 b n o')) := by
  rw [val_main_v49_apply, show idx_main_v49 (ix3 b n o) = ix3 b n (0 : Fin 1) from funext fun a => Fin.ext (by match a with | ⟨0, _⟩ => rfl | ⟨1, _⟩ => rfl | ⟨2, _⟩ => rfl),
    val_main_v48_apply, show idx_main_v48 (ix3 b n (0 : Fin 1)) = ix2 b n from funext fun a => Fin.ext (by match a with | ⟨0, _⟩ => rfl | ⟨1, _⟩ => rfl),
    val_main_v47_apply, val_main_v46_apply, val_main_cst_10_apply]
  unfold val_main_v45
  rw [maxReduce_apply, val_main_cst_9_apply]
  rfl

/-- The exponential of the second round's shifted logits. -/
theorem e1_apply (x0 : (⟨S32x2048x16, .f32⟩ : BufTy).Contents (Elt Ideal)) (x1 : (⟨S1x64x32x16, .f32⟩ : BufTy).Contents (Elt Ideal)) (b : Fin 32) (n : Fin 2048) (o : Fin 64) :
    val_main_v51 (F := Ideal) x0 x1 (ix3 b n o)
      = Ideal.exp (val_main_v44 (F := Ideal) x0 x1 (ix3 b n o)
          - Cert.Routing.mx (fun o' : Fin 64 => val_main_v44 (F := Ideal) x0 x1 (ix3 b n o'))) := by
  rw [val_main_v51_apply, val_main_v50_apply, m1_apply]
  rfl

/-- The second round's coupling is the softmax of the logits over the output capsules. -/
theorem c1_apply (x0 : (⟨S32x2048x16, .f32⟩ : BufTy).Contents (Elt Ideal)) (x1 : (⟨S1x64x32x16, .f32⟩ : BufTy).Contents (Elt Ideal)) (b : Fin 32) (n : Fin 2048) (o : Fin 64) :
    val_main_v55 (F := Ideal) x0 x1 (ix3 b n o)
      = Cert.Routing.sm (fun o' : Fin 64 => val_main_v44 (F := Ideal) x0 x1 (ix3 b n o')) o := by
  rw [val_main_v55_apply, val_main_v54_apply, show idx_main_v54 (ix3 b n o) = ix3 b n (0 : Fin 1) from funext fun a => Fin.ext (by match a with | ⟨0, _⟩ => rfl | ⟨1, _⟩ => rfl | ⟨2, _⟩ => rfl),
    val_main_v53_apply, show idx_main_v53 (ix3 b n (0 : Fin 1)) = ix2 b n from funext fun a => Fin.ext (by match a with | ⟨0, _⟩ => rfl | ⟨1, _⟩ => rfl),
    val_main_v52_apply, val_main_cst_11_apply, e1_apply]
  simp only [Ideal.hostDivf_def, Ideal.ofBits_def, Ideal.ofBits_zero_f32, zero_add]
  unfold Cert.Routing.sm
  refine congrArg (Ideal.div _) (Finset.sum_congr rfl fun k _ => ?_)
  rw [show idx_main_v52 (ix2 b n) k = ix3 b n k from funext fun a => Fin.ext (by match a with | ⟨0, _⟩ => rfl | ⟨1, _⟩ => rfl | ⟨2, _⟩ => rfl), e1_apply]

/-! ## The second round: weighted sum, squashing, agreement -/

/-- The second round's weighted sum of the predictions over the input capsules. -/
theorem s1_apply (x0 : (⟨S32x2048x16, .f32⟩ : BufTy).Contents (Elt Ideal)) (x1 : (⟨S1x64x32x16, .f32⟩ : BufTy).Contents (Elt Ideal)) (b : Fin 32) (o : Fin 64) (d : Fin 32) :
    val_main_v59 (F := Ideal) x0 x1 (ix3 b o d)
      = ∑ n : Fin 2048, val_main_v55 (F := Ideal) x0 x1 (ix3 b n o) * val_main_v12 (F := Ideal) x0 x1 (ix4 b n o d) := by
  rw [val_main_v59_apply, val_main_cst_12_apply]
  simp only [Ideal.ofBits_def, Ideal.ofBits_zero_f32, zero_add]
  refine Finset.sum_congr rfl fun k _ => ?_
  rw [show idx_main_v59 (ix3 b o d) k = ix4 b k o d from funext fun a => Fin.ext (by match a with | ⟨0, _⟩ => rfl | ⟨1, _⟩ => rfl | ⟨2, _⟩ => rfl | ⟨3, _⟩ => rfl),
    val_main_v58_apply, val_main_v57_apply, show idx_main_v57 (ix4 b k o d) = ix4 b k o (0 : Fin 1) from funext fun a => Fin.ext (by match a with | ⟨0, _⟩ => rfl | ⟨1, _⟩ => rfl | ⟨2, _⟩ => rfl | ⟨3, _⟩ => rfl),
    val_main_v56_apply, show idx_main_v56 (ix4 b k o (0 : Fin 1)) = ix3 b k o from funext fun a => Fin.ext (by match a with | ⟨0, _⟩ => rfl | ⟨1, _⟩ => rfl | ⟨2, _⟩ => rfl)]
  rfl

/-- The length of the second round's weighted sum. -/
theorem n1_apply (x0 : (⟨S32x2048x16, .f32⟩ : BufTy).Contents (Elt Ideal)) (x1 : (⟨S1x64x32x16, .f32⟩ : BufTy).Contents (Elt Ideal)) (b : Fin 32) (o : Fin 64) :
    val_main_v61 (F := Ideal) x0 x1 (ix4 b (0 : Fin 1) o (0 : Fin 1))
      = Ideal.sqrt (Cert.Routing.ssq fun d : Fin 32 => val_main_v59 (F := Ideal) x0 x1 (ix3 b o d)) := by
  rw [val_main_v61_apply, val_main_call2_v2_apply,
    show idx_main_call2_v2 (ix4 b (0 : Fin 1) o (0 : Fin 1)) = ix3 b (0 : Fin 1) o from funext fun a => Fin.ext (by match a with | ⟨0, _⟩ => rfl | ⟨1, _⟩ => rfl | ⟨2, _⟩ => rfl),
    val_main_call2_v1_apply, val_main_call2_cst_apply]
  simp only [Ideal.hostUnary_sqrt_def, Ideal.ofBits_def, Ideal.ofBits_zero_f32, zero_add]
  unfold Cert.Routing.ssq
  refine congrArg Ideal.sqrt (Finset.sum_congr rfl fun k _ => ?_)
  rw [val_main_call2_v0_apply, show idx_main_call2_v1 (ix3 b (0 : Fin 1) o) k = ix4 b (0 : Fin 1) o k from funext fun a => Fin.ext (by match a with | ⟨0, _⟩ => rfl | ⟨1, _⟩ => rfl | ⟨2, _⟩ => rfl | ⟨3, _⟩ => rfl),
    val_main_v60_apply, show idx_main_v60 (ix4 b (0 : Fin 1) o k) = ix3 b o k from funext fun a => Fin.ext (by match a with | ⟨0, _⟩ => rfl | ⟨1, _⟩ => rfl | ⟨2, _⟩ => rfl)]
  rfl

/-- The second round's output pose: the weighted sum, squashed. -/
theorem v1_apply (x0 : (⟨S32x2048x16, .f32⟩ : BufTy).Contents (Elt Ideal)) (x1 : (⟨S1x64x32x16, .f32⟩ : BufTy).Contents (Elt Ideal)) (b : Fin 32) (o : Fin 64) (d : Fin 32) :
    val_main_v71 (F := Ideal) x0 x1 (ix4 b (0 : Fin 1) o d)
      = Cert.Routing.squash' (fun d' : Fin 32 => val_main_v59 (F := Ideal) x0 x1 (ix3 b o d')) d := by
  have e32 : idx_main_v63 (ix4 b (0 : Fin 1) o d) = ix4 b (0 : Fin 1) o (0 : Fin 1) := funext fun a => Fin.ext (by match a with | ⟨0, _⟩ => rfl | ⟨1, _⟩ => rfl | ⟨2, _⟩ => rfl | ⟨3, _⟩ => rfl)
  have e39 : idx_main_v70 (ix4 b (0 : Fin 1) o d) = ix4 b (0 : Fin 1) o (0 : Fin 1) := funext fun a => Fin.ext (by match a with | ⟨0, _⟩ => rfl | ⟨1, _⟩ => rfl | ⟨2, _⟩ => rfl | ⟨3, _⟩ => rfl)
  have e29 : idx_main_v60 (ix4 b (0 : Fin 1) o d) = ix3 b o d := funext fun a => Fin.ext (by match a with | ⟨0, _⟩ => rfl | ⟨1, _⟩ => rfl | ⟨2, _⟩ => rfl)
  rw [val_main_v71_apply, val_main_v64_apply, val_main_v63_apply, e32, val_main_v70_apply, e39, val_main_v69_apply,
    val_main_v66_apply, val_main_v68_apply, val_main_v65_apply, val_main_v67_apply, val_main_cst_13_apply,
    val_main_cst_14_apply, val_main_v62_apply, n1_apply, val_main_v60_apply, e29]
  simp only [Ideal.hostDivf_def, Ideal.mulf_def, Ideal.addf_def, Ideal.ofBits_def]
  rfl

/-- The second round's agreement of a prediction with the output pose. -/
theorem a1_apply (x0 : (⟨S32x2048x16, .f32⟩ : BufTy).Contents (Elt Ideal)) (x1 : (⟨S1x64x32x16, .f32⟩ : BufTy).Contents (Elt Ideal)) (b : Fin 32) (n : Fin 2048) (o : Fin 64) :
    val_main_v74 (F := Ideal) x0 x1 (ix3 b n o)
      = ∑ d : Fin 32, val_main_v12 (F := Ideal) x0 x1 (ix4 b n o d) * val_main_v71 (F := Ideal) x0 x1 (ix4 b (0 : Fin 1) o d) := by
  rw [val_main_v74_apply, val_main_cst_15_apply]
  simp only [Ideal.ofBits_def, Ideal.ofBits_zero_f32, zero_add]
  refine Finset.sum_congr rfl fun k _ => ?_
  rw [show idx_main_v74 (ix3 b n o) k = ix4 b n o k from funext fun a => Fin.ext (by match a with | ⟨0, _⟩ => rfl | ⟨1, _⟩ => rfl | ⟨2, _⟩ => rfl | ⟨3, _⟩ => rfl),
    val_main_v73_apply, val_main_v72_apply, show idx_main_v72 (ix4 b n o k) = ix4 b (0 : Fin 1) o k from funext fun a => Fin.ext (by match a with | ⟨0, _⟩ => rfl | ⟨1, _⟩ => rfl | ⟨2, _⟩ => rfl | ⟨3, _⟩ => rfl)]
  rfl

/-! ## The third round: the coupling -/

/-- The maximum the third softmax subtracts. -/
theorem m2_apply (x0 : (⟨S32x2048x16, .f32⟩ : BufTy).Contents (Elt Ideal)) (x1 : (⟨S1x64x32x16, .f32⟩ : BufTy).Contents (Elt Ideal)) (b : Fin 32) (n : Fin 2048) (o : Fin 64) :
    val_main_v80 (F := Ideal) x0 x1 (ix3 b n o)
      = Cert.Routing.mx (fun o' : Fin 64 => val_main_v75 (F := Ideal) x0 x1 (ix3 b n o')) := by
  rw [val_main_v80_apply, show idx_main_v80 (ix3 b n o) = ix3 b n (0 : Fin 1) from funext fun a => Fin.ext (by match a with | ⟨0, _⟩ => rfl | ⟨1, _⟩ => rfl | ⟨2, _⟩ => rfl),
    val_main_v79_apply, show idx_main_v79 (ix3 b n (0 : Fin 1)) = ix2 b n from funext fun a => Fin.ext (by match a with | ⟨0, _⟩ => rfl | ⟨1, _⟩ => rfl),
    val_main_v78_apply, val_main_v77_apply, val_main_cst_17_apply]
  unfold val_main_v76
  rw [maxReduce_apply, val_main_cst_16_apply]
  rfl

/-- The exponential of the third round's shifted logits. -/
theorem e2_apply (x0 : (⟨S32x2048x16, .f32⟩ : BufTy).Contents (Elt Ideal)) (x1 : (⟨S1x64x32x16, .f32⟩ : BufTy).Contents (Elt Ideal)) (b : Fin 32) (n : Fin 2048) (o : Fin 64) :
    val_main_v82 (F := Ideal) x0 x1 (ix3 b n o)
      = Ideal.exp (val_main_v75 (F := Ideal) x0 x1 (ix3 b n o)
          - Cert.Routing.mx (fun o' : Fin 64 => val_main_v75 (F := Ideal) x0 x1 (ix3 b n o'))) := by
  rw [val_main_v82_apply, val_main_v81_apply, m2_apply]
  rfl

/-- The third round's coupling is the softmax of the logits over the output capsules. -/
theorem c2_apply (x0 : (⟨S32x2048x16, .f32⟩ : BufTy).Contents (Elt Ideal)) (x1 : (⟨S1x64x32x16, .f32⟩ : BufTy).Contents (Elt Ideal)) (b : Fin 32) (n : Fin 2048) (o : Fin 64) :
    val_main_v86 (F := Ideal) x0 x1 (ix3 b n o)
      = Cert.Routing.sm (fun o' : Fin 64 => val_main_v75 (F := Ideal) x0 x1 (ix3 b n o')) o := by
  rw [val_main_v86_apply, val_main_v85_apply, show idx_main_v85 (ix3 b n o) = ix3 b n (0 : Fin 1) from funext fun a => Fin.ext (by match a with | ⟨0, _⟩ => rfl | ⟨1, _⟩ => rfl | ⟨2, _⟩ => rfl),
    val_main_v84_apply, show idx_main_v84 (ix3 b n (0 : Fin 1)) = ix2 b n from funext fun a => Fin.ext (by match a with | ⟨0, _⟩ => rfl | ⟨1, _⟩ => rfl),
    val_main_v83_apply, val_main_cst_18_apply, e2_apply]
  simp only [Ideal.hostDivf_def, Ideal.ofBits_def, Ideal.ofBits_zero_f32, zero_add]
  unfold Cert.Routing.sm
  refine congrArg (Ideal.div _) (Finset.sum_congr rfl fun k _ => ?_)
  rw [show idx_main_v83 (ix2 b n) k = ix3 b n k from funext fun a => Fin.ext (by match a with | ⟨0, _⟩ => rfl | ⟨1, _⟩ => rfl | ⟨2, _⟩ => rfl), e2_apply]

/-! ## The third round: weighted sum, squashing -/

/-- The third round's weighted sum of the predictions over the input capsules. -/
theorem s2_apply (x0 : (⟨S32x2048x16, .f32⟩ : BufTy).Contents (Elt Ideal)) (x1 : (⟨S1x64x32x16, .f32⟩ : BufTy).Contents (Elt Ideal)) (b : Fin 32) (o : Fin 64) (d : Fin 32) :
    val_main_v90 (F := Ideal) x0 x1 (ix3 b o d)
      = ∑ n : Fin 2048, val_main_v86 (F := Ideal) x0 x1 (ix3 b n o) * val_main_v12 (F := Ideal) x0 x1 (ix4 b n o d) := by
  rw [val_main_v90_apply, val_main_cst_19_apply]
  simp only [Ideal.ofBits_def, Ideal.ofBits_zero_f32, zero_add]
  refine Finset.sum_congr rfl fun k _ => ?_
  rw [show idx_main_v90 (ix3 b o d) k = ix4 b k o d from funext fun a => Fin.ext (by match a with | ⟨0, _⟩ => rfl | ⟨1, _⟩ => rfl | ⟨2, _⟩ => rfl | ⟨3, _⟩ => rfl),
    val_main_v89_apply, val_main_v88_apply, show idx_main_v88 (ix4 b k o d) = ix4 b k o (0 : Fin 1) from funext fun a => Fin.ext (by match a with | ⟨0, _⟩ => rfl | ⟨1, _⟩ => rfl | ⟨2, _⟩ => rfl | ⟨3, _⟩ => rfl),
    val_main_v87_apply, show idx_main_v87 (ix4 b k o (0 : Fin 1)) = ix3 b k o from funext fun a => Fin.ext (by match a with | ⟨0, _⟩ => rfl | ⟨1, _⟩ => rfl | ⟨2, _⟩ => rfl)]
  rfl

/-- The length of the third round's weighted sum. -/
theorem n2_apply (x0 : (⟨S32x2048x16, .f32⟩ : BufTy).Contents (Elt Ideal)) (x1 : (⟨S1x64x32x16, .f32⟩ : BufTy).Contents (Elt Ideal)) (b : Fin 32) (o : Fin 64) :
    val_main_v92 (F := Ideal) x0 x1 (ix4 b (0 : Fin 1) o (0 : Fin 1))
      = Ideal.sqrt (Cert.Routing.ssq fun d : Fin 32 => val_main_v90 (F := Ideal) x0 x1 (ix3 b o d)) := by
  rw [val_main_v92_apply, val_main_call3_v2_apply,
    show idx_main_call3_v2 (ix4 b (0 : Fin 1) o (0 : Fin 1)) = ix3 b (0 : Fin 1) o from funext fun a => Fin.ext (by match a with | ⟨0, _⟩ => rfl | ⟨1, _⟩ => rfl | ⟨2, _⟩ => rfl),
    val_main_call3_v1_apply, val_main_call3_cst_apply]
  simp only [Ideal.hostUnary_sqrt_def, Ideal.ofBits_def, Ideal.ofBits_zero_f32, zero_add]
  unfold Cert.Routing.ssq
  refine congrArg Ideal.sqrt (Finset.sum_congr rfl fun k _ => ?_)
  rw [val_main_call3_v0_apply, show idx_main_call3_v1 (ix3 b (0 : Fin 1) o) k = ix4 b (0 : Fin 1) o k from funext fun a => Fin.ext (by match a with | ⟨0, _⟩ => rfl | ⟨1, _⟩ => rfl | ⟨2, _⟩ => rfl | ⟨3, _⟩ => rfl),
    val_main_v91_apply, show idx_main_v91 (ix4 b (0 : Fin 1) o k) = ix3 b o k from funext fun a => Fin.ext (by match a with | ⟨0, _⟩ => rfl | ⟨1, _⟩ => rfl | ⟨2, _⟩ => rfl)]
  rfl

/-- The third round's output pose: the weighted sum, squashed. -/
theorem v2_apply (x0 : (⟨S32x2048x16, .f32⟩ : BufTy).Contents (Elt Ideal)) (x1 : (⟨S1x64x32x16, .f32⟩ : BufTy).Contents (Elt Ideal)) (b : Fin 32) (o : Fin 64) (d : Fin 32) :
    val_main_v102 (F := Ideal) x0 x1 (ix4 b (0 : Fin 1) o d)
      = Cert.Routing.squash' (fun d' : Fin 32 => val_main_v90 (F := Ideal) x0 x1 (ix3 b o d')) d := by
  have e32 : idx_main_v94 (ix4 b (0 : Fin 1) o d) = ix4 b (0 : Fin 1) o (0 : Fin 1) := funext fun a => Fin.ext (by match a with | ⟨0, _⟩ => rfl | ⟨1, _⟩ => rfl | ⟨2, _⟩ => rfl | ⟨3, _⟩ => rfl)
  have e39 : idx_main_v101 (ix4 b (0 : Fin 1) o d) = ix4 b (0 : Fin 1) o (0 : Fin 1) := funext fun a => Fin.ext (by match a with | ⟨0, _⟩ => rfl | ⟨1, _⟩ => rfl | ⟨2, _⟩ => rfl | ⟨3, _⟩ => rfl)
  have e29 : idx_main_v91 (ix4 b (0 : Fin 1) o d) = ix3 b o d := funext fun a => Fin.ext (by match a with | ⟨0, _⟩ => rfl | ⟨1, _⟩ => rfl | ⟨2, _⟩ => rfl)
  rw [val_main_v102_apply, val_main_v95_apply, val_main_v94_apply, e32, val_main_v101_apply, e39, val_main_v100_apply,
    val_main_v97_apply, val_main_v99_apply, val_main_v96_apply, val_main_v98_apply, val_main_cst_20_apply,
    val_main_cst_21_apply, val_main_v93_apply, n2_apply, val_main_v91_apply, e29]
  simp only [Ideal.hostDivf_def, Ideal.mulf_def, Ideal.addf_def, Ideal.ofBits_def]
  rfl

/-! ## The stages are the direct arrangement -/

/-- The inputs of batch element `b`, capsule by capsule. -/
abbrev xin (x0 : (⟨S32x2048x16, .f32⟩ : BufTy).Contents (Elt Ideal)) (b : Fin 32) : Fin 2048 → Fin 16 → EReal := fun n i => x0 (ix3 b n i)

/-- The shared weight. -/
abbrev win (x1 : (⟨S1x64x32x16, .f32⟩ : BufTy).Contents (Elt Ideal)) : Fin 64 → Fin 32 → Fin 16 → EReal := fun o d i => x1 (ix4 (0 : Fin 1) o d i)

section Fold

variable (x0 : (⟨S32x2048x16, .f32⟩ : BufTy).Contents (Elt Ideal)) (x1 : (⟨S1x64x32x16, .f32⟩ : BufTy).Contents (Elt Ideal)) (b : Fin 32)

theorem xs_fold (n : Fin 2048) (i : Fin 16) :
    val_main_v10 (F := Ideal) x0 (ix3 b n i) = Cert.Routing.xs' (xin x0 b) n i := xs_apply x0 b n i

theorem u_fold (n : Fin 2048) (o : Fin 64) (d : Fin 32) :
    val_main_v12 (F := Ideal) x0 x1 (ix4 b n o d) = Cert.Routing.u (xin x0 b) (win x1) n o d := by
  rw [u_apply]
  unfold Cert.Routing.u
  exact Finset.sum_congr rfl fun i _ => by rw [xs_fold]

theorem s0_fold (o : Fin 64) (d : Fin 32) :
    val_main_v28 (F := Ideal) x0 x1 (ix3 b o d) = Cert.Routing.sR (xin x0 b) (win x1) (fun _ => Cert.Routing.c0) o d := by
  rw [s0_apply]
  unfold Cert.Routing.sR
  exact Finset.sum_congr rfl fun n _ => by rw [c0_apply, u_fold]

theorem v0_fold (o : Fin 64) (d : Fin 32) :
    val_main_v40 (F := Ideal) x0 x1 (ix4 b (0 : Fin 1) o d) = Cert.Routing.v0R (xin x0 b) (win x1) o d := by
  rw [v0_apply]
  unfold Cert.Routing.v0R
  exact congrArg (fun f => Cert.Routing.squash' f d) (funext fun d' => s0_fold x0 x1 b o d')

theorem a0_fold (n : Fin 2048) (o : Fin 64) :
    val_main_v43 (F := Ideal) x0 x1 (ix3 b n o) = Cert.Routing.aR (xin x0 b) (win x1) (Cert.Routing.v0R (xin x0 b) (win x1)) n o := by
  rw [a0_apply]
  unfold Cert.Routing.aR
  exact Finset.sum_congr rfl fun d _ => by rw [u_fold, v0_fold]

theorem l1_fold (n : Fin 2048) (o : Fin 64) :
    val_main_v44 (F := Ideal) x0 x1 (ix3 b n o) = Cert.Routing.l1R (xin x0 b) (win x1) n o := by
  rw [l1_apply, a0_fold]
  rfl

theorem c1_fold (n : Fin 2048) (o : Fin 64) :
    val_main_v55 (F := Ideal) x0 x1 (ix3 b n o) = Cert.Routing.c1R (xin x0 b) (win x1) n o := by
  rw [c1_apply]
  unfold Cert.Routing.c1R
  exact congrArg (fun f => Cert.Routing.sm f o) (funext fun o' => l1_fold x0 x1 b n o')

theorem s1_fold (o : Fin 64) (d : Fin 32) :
    val_main_v59 (F := Ideal) x0 x1 (ix3 b o d) = Cert.Routing.sR (xin x0 b) (win x1) (Cert.Routing.c1R (xin x0 b) (win x1)) o d := by
  rw [s1_apply]
  unfold Cert.Routing.sR
  exact Finset.sum_congr rfl fun n _ => by rw [c1_fold, u_fold]

theorem v1_fold (o : Fin 64) (d : Fin 32) :
    val_main_v71 (F := Ideal) x0 x1 (ix4 b (0 : Fin 1) o d) = Cert.Routing.v1R (xin x0 b) (win x1) o d := by
  rw [v1_apply]
  unfold Cert.Routing.v1R
  exact congrArg (fun f => Cert.Routing.squash' f d) (funext fun d' => s1_fold x0 x1 b o d')

theorem a1_fold (n : Fin 2048) (o : Fin 64) :
    val_main_v74 (F := Ideal) x0 x1 (ix3 b n o) = Cert.Routing.aR (xin x0 b) (win x1) (Cert.Routing.v1R (xin x0 b) (win x1)) n o := by
  rw [a1_apply]
  unfold Cert.Routing.aR
  exact Finset.sum_congr rfl fun d _ => by rw [u_fold, v1_fold]

theorem l2_fold (n : Fin 2048) (o : Fin 64) :
    val_main_v75 (F := Ideal) x0 x1 (ix3 b n o) = Cert.Routing.l2R (xin x0 b) (win x1) n o := by
  rw [l2_apply, l1_fold, a1_fold]
  rfl

theorem c2_fold (n : Fin 2048) (o : Fin 64) :
    val_main_v86 (F := Ideal) x0 x1 (ix3 b n o) = Cert.Routing.c2R (xin x0 b) (win x1) n o := by
  rw [c2_apply]
  unfold Cert.Routing.c2R
  exact congrArg (fun f => Cert.Routing.sm f o) (funext fun o' => l2_fold x0 x1 b n o')

theorem s2_fold (o : Fin 64) (d : Fin 32) :
    val_main_v90 (F := Ideal) x0 x1 (ix3 b o d) = Cert.Routing.sR (xin x0 b) (win x1) (Cert.Routing.c2R (xin x0 b) (win x1)) o d := by
  rw [s2_apply]
  unfold Cert.Routing.sR
  exact Finset.sum_congr rfl fun n _ => by rw [c2_fold, u_fold]

theorem v2_fold (o : Fin 64) (d : Fin 32) :
    val_main_v102 (F := Ideal) x0 x1 (ix4 b (0 : Fin 1) o d) = Cert.Routing.outR (xin x0 b) (win x1) o d := by
  rw [v2_apply]
  unfold Cert.Routing.outR
  exact congrArg (fun f => Cert.Routing.squash' f d) (funext fun d' => s2_fold x0 x1 b o d')

end Fold

/-! ## The result -/

/-- The element `(b, o, d)` of the reference's result is the direct arrangement of routing, applied to batch element
    `b`'s input capsules and the shared weight, at `(o, d)`. -/
theorem ref_apply [Cert.ReferenceIdeal.Facts] (x0 : (⟨S32x2048x16, .f32⟩ : BufTy).Contents (Elt Ideal)) (x1 : (⟨S1x64x32x16, .f32⟩ : BufTy).Contents (Elt Ideal)) (b : Fin 32) (o : Fin 64) (d : Fin 32) :
    Cert.ReferenceIdeal.ReadP.val_main_v103 (F := Ideal) x0 x1 (ix3 b o d)
      = Cert.Routing.outR (fun n i => x0 (ix3 b n i)) (fun o' d' i => x1 (ix4 0 o' d' i)) o d := by
  have hb := b.isLt
  have ho := o.isLt
  have hd := d.isLt
  rw [val_main_v103_apply,
    show idx_main_v103 (ix3 b o d) = ix4 b (0 : Fin 1) o d from
      funext fun a => Fin.ext (by
        match a with
        | ⟨0, _⟩ => show ((b.val * 64 + o.val) * 32 + d.val) / 2048 = b.val; omega
        | ⟨1, _⟩ => rfl
        | ⟨2, _⟩ => show ((b.val * 64 + o.val) * 32 + d.val) / 32 % 64 = o.val; omega
        | ⟨3, _⟩ => show ((b.val * 64 + o.val) * 32 + d.val) % 32 = d.val; omega)]
  exact v2_fold x0 x1 b o d

end Cert.ReferenceIdeal.RefValue

end
-- ==== Proof.lean ====
/-
  Capsule routing, three rounds: a Pallas kernel against its jnp reference, equal as extended reals at finite inputs.

  The kernel works on the transposed input and weight, eight batch elements per grid point, and never forms the
  predictions u = W·x̂: it contracts the squashed inputs with the coupling first and the weight second (and, for the
  agreement, the weight with the output pose first and the inputs second); in the first round it uses the uniform
  coupling 1/64 directly. The reference forms the predictions and takes a softmax of zero logits in the first round.
  Proof/Routing.lean writes both computations for one batch element; Proof/RoutingLaw.lean shows they are one function
  when every input entry is a real number (the rearrangements move factors across sums, which the extended reals allow
  only at finite entries: this is where the precondition is used). Proof/KernelRead.lean reads the kernel body's
  result at an index, Proof/KernelArray.lean assembles the four blocks into the whole result array and reads the
  precondition as "every entry is a real"; Proof/RefRun.lean reads the reference's run back as the composition of its
  operations, stage by stage, and Proof/RefRead.lean reads that composition at an index. The kernel and
  its idealization are the same text (no operation was rewritten), so the preservation claim is trivial.
-/
import proofs.«122644_j6313601925542_2_alg».proof.Defs
import proofs.«122644_j6313601925542_2_alg».proof.Proof.Gen.Kernel
import proofs.«122644_j6313601925542_2_alg».proof.Proof.Gen.Kernel.Skeleton
import proofs.«122644_j6313601925542_2_alg».proof.Proof.Gen.Kernel.Launch
import proofs.«122644_j6313601925542_2_alg».proof.Proof.Gen.Kernel.Points
import proofs.«122644_j6313601925542_2_alg».proof.Proof.Gen.Kernel.Frame
import proofs.«122644_j6313601925542_2_alg».proof.Proof.Gen.KernelIdeal
import proofs.«122644_j6313601925542_2_alg».proof.Proof.Gen.KernelIdeal.Skeleton
import proofs.«122644_j6313601925542_2_alg».proof.Proof.Gen.KernelIdeal.Launch
import proofs.«122644_j6313601925542_2_alg».proof.Proof.Gen.KernelIdeal.Points
import proofs.«122644_j6313601925542_2_alg».proof.Proof.Gen.KernelIdeal.Frame
import proofs.«122644_j6313601925542_2_alg».proof.Proof.Gen.ReferenceIdeal
import proofs.«122644_j6313601925542_2_alg».proof.Proof.Gen.Pre_finite_inputs
import proofs.«122644_j6313601925542_2_alg».proof.Proof.Gen.KernelIdeal.Value
import proofs.«122644_j6313601925542_2_alg».proof.Proof.RoutingLaw
import proofs.«122644_j6313601925542_2_alg».proof.Proof.KernelRead
import proofs.«122644_j6313601925542_2_alg».proof.Proof.KernelArray
import proofs.«122644_j6313601925542_2_alg».proof.Proof.RefRun
import proofs.«122644_j6313601925542_2_alg».proof.Proof.RefRead
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and keeps its arguments. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- Both programs end at the routing result of the argument arrays: the kernel at the factored arrangement, batch
    element by batch element, the reference at the direct one; at finite inputs the two are one function. -/
theorem algebraic : Cert.algebraic_KernelIdeal_ReferenceIdeal := by
  intro m ρ m' ρ' hpre hagree
  refine ⟨fun c => Cert.KernelIdeal.Arr.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Arr.run Cert.KernelIdeal.KRead.out0_2_apply m ρ, ?_⟩
  refine (θ_run Cert.ReferenceIdeal.defs _ _).mono (fun _ h c => ⟨(h c).1.trans ?_, (h c).2⟩)
    (Cert.ReferenceIdeal.RefRun.run (F := Ideal) m' ρ')
  obtain ⟨hx, hw⟩ := Cert.KernelIdeal.Arr.pre_real m hpre c
  rw [(hagree c).1, (hagree c).2]
  funext j
  obtain ⟨b, o, d, rfl⟩ : ∃ (b : Fin 32) (o : Fin 64) (d : Fin 32), j = ix3 b o d := ⟨j 0, j 1, j 2, eq_ix3 j⟩
  rw [Cert.ReferenceIdeal.RefValue.ref_apply]
  exact (congrFun (congrFun (Cert.Routing.outK_eq_outR (fun n i => hx _) (fun o' d' i => hw _)) o) d).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
